-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S4x128x128 : Shape := ⟨3, ![4, 128, 128]⟩
abbrev S4x128 : Shape := ⟨2, ![4, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn_part1 {F : FTy → Type} [FloatOps F] (main_arg6 : FVec F S4x128 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128 .f32 := Host.absf main_arg6
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  main_v23

def fn {F : FTy → Type} [FloatOps F] (main_arg0 : FVec F S50000x128 .f32) (main_arg1 : IVec S2x800000 32) (main_arg2 : IVec S50000 32) (main_arg3 : FVec F S4x128x128 .f32) (main_arg4 : FVec F S4x128 .f32) (main_arg5 : FVec F S4x128x128 .f32) (main_arg6 : FVec F S4x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S4x128x128 .f32 := Host.absf main_arg3
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128 .f32 := Host.absf main_arg4
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S4x128x128 .f32 := Host.absf main_arg5
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg6 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S4x128x128 : Shape := ⟨3, ![4, 128, 128]⟩
abbrev S4x128 : Shape := ⟨2, ![4, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩

abbrev nBuf : Space → Nat
  | .hbm => 111
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S4x128x128, .f32⟩
  | .hbm, ⟨4, _⟩ => ⟨S4x128, .f32⟩
  | .hbm, ⟨5, _⟩ => ⟨S4x128x128, .f32⟩
  | .hbm, ⟨6, _⟩ => ⟨S4x128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S50000x128, .f32⟩
  | .hbm, ⟨25, _⟩ => ⟨S1x128x128, .f32⟩
  | .hbm, ⟨26, _⟩ => ⟨S128x128, .f32⟩
  | .hbm, ⟨27, _⟩ => ⟨S1x128, .f32⟩
  | .hbm, ⟨28, _⟩ => ⟨S128, .f32⟩
  | .hbm, ⟨29, _⟩ => ⟨S1x128x128, .f32⟩
  | .hbm, ⟨30, _⟩ => ⟨S128x128, .f32⟩
  | .hbm, ⟨31, _⟩ => ⟨S1x128, .f32⟩
  | .hbm, ⟨32, _⟩ => ⟨S128, .f32⟩
  | .hbm, ⟨33, _⟩ => ⟨S1x128, .f32⟩
  | .hbm, ⟨34, _⟩ => ⟨S1x128, .f32⟩
  | .hbm, ⟨35, _⟩ => ⟨S50000x128, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x128, .f32⟩
  | .hbm, ⟨45, _⟩ => ⟨S_, .f32⟩
  | .hbm, ⟨46, _⟩ => ⟨S50000x128, .f32⟩
  | .hbm, ⟨47, _⟩ => ⟨S800000x1, .i32⟩
  | .hbm, ⟨48, _⟩ => ⟨S50000x128, .f32⟩
  | .hbm, ⟨49, _⟩ => ⟨S50000x128, .f32⟩
  | .hbm, ⟨50, _⟩ => ⟨S1x128x128, .f32⟩
  | .hbm, ⟨51, _⟩ => ⟨S128x128, .f32⟩
  | .hbm, ⟨52, _⟩ => ⟨S1x128, .f32⟩
  | .hbm, ⟨53, _⟩ => ⟨S128, .f32⟩
  | .hbm, ⟨54, _⟩ => ⟨S1x128x128, .f32⟩
  | .hbm, ⟨55, _⟩ => ⟨S128x128, .f32⟩
  | .hbm, ⟨56, _⟩ => ⟨S1x128, .f32⟩
  | .hbm, ⟨57, _⟩ => ⟨S128, .f32⟩
  | .hbm, ⟨58, _⟩ => ⟨S1x128, .f32⟩
  | .hbm, ⟨59, _⟩ => ⟨S1x128, .f32⟩
  | .hbm, ⟨60, _⟩ => ⟨S50000x128, .f32⟩
  | .hbm, ⟨61, _⟩ => ⟨S_, .i32⟩
  | .hbm, ⟨62, _⟩ => ⟨S800000, .i32⟩
  | .hbm, ⟨63, _⟩ => ⟨S800000, .i1⟩
  | .hbm, ⟨64, _⟩ => ⟨S_, .i32⟩
  | .hbm, ⟨65, _⟩ => ⟨S800000, .i32⟩
  | .hbm, ⟨66, _⟩ => ⟨S800000, .i32⟩
  | .hbm, ⟨67, _⟩ => ⟨S800000, .i32⟩
  | .hbm, ⟨68, _⟩ => ⟨S800000x1, .i32⟩
  | .hbm, ⟨69, _⟩ => ⟨S800000x128, .f32⟩
  | .hbm, ⟨70, _⟩ => ⟨S_, .f32⟩
  | .hbm, ⟨71, _⟩ => ⟨S50000x128, .f32⟩
  | .hbm, ⟨72, _⟩ => ⟨S800000x1, .i32⟩
  | .hbm, ⟨73, _⟩ => ⟨S50000x128, .f32⟩
  | .hbm, ⟨74, _⟩ => ⟨S50000x128, .f32⟩
  | .hbm, ⟨75, _⟩ => ⟨S1x128x128, .f32⟩
  | .hbm, ⟨76, _⟩ => ⟨S128x128, .f32⟩
  | .hbm, ⟨77, _⟩ => ⟨S1x128, .f32⟩
  | .hbm, ⟨78, _⟩ => ⟨S128, .f32⟩
  | .hbm, ⟨79, _⟩ => ⟨S1x128x128, .f32⟩
  | .hbm, ⟨80, _⟩ => ⟨S128x128, .f32⟩
  | .hbm, ⟨81, _⟩ => ⟨S1x128, .f32⟩
  | .hbm, ⟨82, _⟩ => ⟨S128, .f32⟩
  | .hbm, ⟨83, _⟩ => ⟨S1x128, .f32⟩
  | .hbm, ⟨84, _⟩ => ⟨S1x128, .f32⟩
  | .hbm, ⟨85, _⟩ => ⟨S50000x128, .f32⟩
  | .hbm, ⟨86, _⟩ => ⟨S_, .i32⟩
  | .hbm, ⟨87, _⟩ => ⟨S800000, .i32⟩
  | .hbm, ⟨88, _⟩ => ⟨S800000, .i1⟩
  | .hbm, ⟨89, _⟩ => ⟨S_, .i32⟩
  | .hbm, ⟨90, _⟩ => ⟨S800000, .i32⟩
  | .hbm, ⟨91, _⟩ => ⟨S800000, .i32⟩
  | .hbm, ⟨92, _⟩ => ⟨S800000, .i32⟩
  | .hbm, ⟨93, _⟩ => ⟨S800000x1, .i32⟩
  | .hbm, ⟨94, _⟩ => ⟨S800000x128, .f32⟩
  | .hbm, ⟨95, _⟩ => ⟨S_, .f32⟩
  | .hbm, ⟨96, _⟩ => ⟨S50000x128, .f32⟩
  | .hbm, ⟨97, _⟩ => ⟨S800000x1, .i32⟩
  | .hbm, ⟨98, _⟩ => ⟨S50000x128, .f32⟩
  | .hbm, ⟨99, _⟩ => ⟨S50000x128, .f32⟩
  | .hbm, ⟨100, _⟩ => ⟨S1x128x128, .f32⟩
  | .hbm, ⟨101, _⟩ => ⟨S128x128, .f32⟩
  | .hbm, ⟨102, _⟩ => ⟨S1x128, .f32⟩
  | .hbm, ⟨103, _⟩ => ⟨S128, .f32⟩
  | .hbm, ⟨104, _⟩ => ⟨S1x128x128, .f32⟩
  | .hbm, ⟨105, _⟩ => ⟨S128x128, .f32⟩
  | .hbm, ⟨106, _⟩ => ⟨S1x128, .f32⟩
  | .hbm, ⟨107, _⟩ => ⟨S128, .f32⟩
  | .hbm, ⟨108, _⟩ => ⟨S1x128, .f32⟩
  | .hbm, ⟨109, _⟩ => ⟨S1x128, .f32⟩
  | .hbm, ⟨110, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S1x128, .f32⟩
  | .local _ .vmem, ⟨28, _⟩ => ⟨S128x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_1 : Ref sig .tc := ⟨.hbm, 36, rfl⟩
abbrev main_v26 : Ref sig .tc := ⟨.hbm, 37, rfl⟩
abbrev main_v27 : Ref sig .tc := ⟨.hbm, 38, rfl⟩
abbrev main_c_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c_4 : Ref sig .tc := ⟨.hbm, 61, rfl⟩
abbrev main_v48 : Ref sig .tc := ⟨.hbm, 62, rfl⟩
abbrev main_v49 : Ref sig .tc := ⟨.hbm, 63, rfl⟩
abbrev main_c_5 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_6 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_c_7 : Ref sig .tc := ⟨.hbm, 86, rfl⟩
abbrev main_v70 : Ref sig .tc := ⟨.hbm, 87, rfl⟩
abbrev main_v71 : Ref sig .tc := ⟨.hbm, 88, rfl⟩
abbrev main_c_8 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_cst_9 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v14) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v36) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v58) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v67) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v68) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v69) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v80) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v82) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v89) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v86) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v90) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v91) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S4x128x128 : Shape := ⟨3, ![4, 128, 128]⟩
abbrev S4x128 : Shape := ⟨2, ![4, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 143
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S4x128x128, .f32⟩
  | 4 => ⟨S4x128, .f32⟩
  | 5 => ⟨S4x128x128, .f32⟩
  | 6 => ⟨S4x128, .f32⟩
  | 7 => ⟨S1x800000, .i32⟩
  | 8 => ⟨S800000, .i32⟩
  | 9 => ⟨S1x800000, .i32⟩
  | 10 => ⟨S800000, .i32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x128, .f32⟩
  | 20 => ⟨S_, .f32⟩
  | 21 => ⟨S50000x128, .f32⟩
  | 22 => ⟨S800000x1, .i32⟩
  | 23 => ⟨S50000x128, .f32⟩
  | 24 => ⟨S50000x128, .f32⟩
  | 25 => ⟨S1x128x128, .f32⟩
  | 26 => ⟨S128x128, .f32⟩
  | 27 => ⟨S50000x128, .f32⟩
  | 28 => ⟨S1x128, .f32⟩
  | 29 => ⟨S128, .f32⟩
  | 30 => ⟨S1x128, .f32⟩
  | 31 => ⟨S50000x128, .f32⟩
  | 32 => ⟨S50000x128, .f32⟩
  | 33 => ⟨S_, .f32⟩
  | 34 => ⟨S50000x128, .f32⟩
  | 35 => ⟨S50000x128, .f32⟩
  | 36 => ⟨S1x128x128, .f32⟩
  | 37 => ⟨S128x128, .f32⟩
  | 38 => ⟨S50000x128, .f32⟩
  | 39 => ⟨S1x128, .f32⟩
  | 40 => ⟨S128, .f32⟩
  | 41 => ⟨S1x128, .f32⟩
  | 42 => ⟨S50000x128, .f32⟩
  | 43 => ⟨S50000x128, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x128, .f32⟩
  | 53 => ⟨S_, .f32⟩
  | 54 => ⟨S50000x128, .f32⟩
  | 55 => ⟨S800000x1, .i32⟩
  | 56 => ⟨S50000x128, .f32⟩
  | 57 => ⟨S50000x128, .f32⟩
  | 58 => ⟨S1x128x128, .f32⟩
  | 59 => ⟨S128x128, .f32⟩
  | 60 => ⟨S50000x128, .f32⟩
  | 61 => ⟨S1x128, .f32⟩
  | 62 => ⟨S128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S1x128x128, .f32⟩
  | 70 => ⟨S128x128, .f32⟩
  | 71 => ⟨S50000x128, .f32⟩
  | 72 => ⟨S1x128, .f32⟩
  | 73 => ⟨S128, .f32⟩
  | 74 => ⟨S1x128, .f32⟩
  | 75 => ⟨S50000x128, .f32⟩
  | 76 => ⟨S50000x128, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000x128, .f32⟩
  | 86 => ⟨S_, .f32⟩
  | 87 => ⟨S50000x128, .f32⟩
  | 88 => ⟨S800000x1, .i32⟩
  | 89 => ⟨S50000x128, .f32⟩
  | 90 => ⟨S50000x128, .f32⟩
  | 91 => ⟨S1x128x128, .f32⟩
  | 92 => ⟨S128x128, .f32⟩
  | 93 => ⟨S50000x128, .f32⟩
  | 94 => ⟨S1x128, .f32⟩
  | 95 => ⟨S128, .f32⟩
  | 96 => ⟨S1x128, .f32⟩
  | 97 => ⟨S50000x128, .f32⟩
  | 98 => ⟨S50000x128, .f32⟩
  | 99 => ⟨S_, .f32⟩
  | 100 => ⟨S50000x128, .f32⟩
  | 101 => ⟨S50000x128, .f32⟩
  | 102 => ⟨S1x128x128, .f32⟩
  | 103 => ⟨S128x128, .f32⟩
  | 104 => ⟨S50000x128, .f32⟩
  | 105 => ⟨S1x128, .f32⟩
  | 106 => ⟨S128, .f32⟩
  | 107 => ⟨S1x128, .f32⟩
  | 108 => ⟨S50000x128, .f32⟩
  | 109 => ⟨S50000x128, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S800000x128, .f32⟩
  | 119 => ⟨S_, .f32⟩
  | 120 => ⟨S50000x128, .f32⟩
  | 121 => ⟨S800000x1, .i32⟩
  | 122 => ⟨S50000x128, .f32⟩
  | 123 => ⟨S50000x128, .f32⟩
  | 124 => ⟨S1x128x128, .f32⟩
  | 125 => ⟨S128x128, .f32⟩
  | 126 => ⟨S50000x128, .f32⟩
  | 127 => ⟨S1x128, .f32⟩
  | _ => ⟨S50000x128, .f32⟩

abbrev hbmTy0_1 (i : Nat) : BufTy := match i % 128 with
  | 0 => ⟨S128, .f32⟩
  | 1 => ⟨S1x128, .f32⟩
  | 2 => ⟨S50000x128, .f32⟩
  | 3 => ⟨S50000x128, .f32⟩
  | 4 => ⟨S_, .f32⟩
  | 5 => ⟨S50000x128, .f32⟩
  | 6 => ⟨S50000x128, .f32⟩
  | 7 => ⟨S1x128x128, .f32⟩
  | 8 => ⟨S128x128, .f32⟩
  | 9 => ⟨S50000x128, .f32⟩
  | 10 => ⟨S1x128, .f32⟩
  | 11 => ⟨S128, .f32⟩
  | 12 => ⟨S1x128, .f32⟩
  | 13 => ⟨S50000x128, .f32⟩
  | 14 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_cst : Ref sig .tc := ⟨.hbm, 33, rfl⟩
abbrev main_call0_v0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_1 : Ref sig .tc := ⟨.hbm, 44, rfl⟩
abbrev main_v32 : Ref sig .tc := ⟨.hbm, 45, rfl⟩
abbrev main_v33 : Ref sig .tc := ⟨.hbm, 46, rfl⟩
abbrev main_c_2 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_3 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_call1_cst : Ref sig .tc := ⟨.hbm, 66, rfl⟩
abbrev main_call1_v0 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_c_4 : Ref sig .tc := ⟨.hbm, 77, rfl⟩
abbrev main_v60 : Ref sig .tc := ⟨.hbm, 78, rfl⟩
abbrev main_v61 : Ref sig .tc := ⟨.hbm, 79, rfl⟩
abbrev main_c_5 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_6 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_call2_cst : Ref sig .tc := ⟨.hbm, 99, rfl⟩
abbrev main_call2_v0 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_c_7 : Ref sig .tc := ⟨.hbm, 110, rfl⟩
abbrev main_v88 : Ref sig .tc := ⟨.hbm, 111, rfl⟩
abbrev main_v89 : Ref sig .tc := ⟨.hbm, 112, rfl⟩
abbrev main_c_8 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_cst_9 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_call3_cst : Ref sig .tc := ⟨.hbm, 132, rfl⟩
abbrev main_call3_v0 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibDot.lean ====
/-
  A plain matrix product read at an entry. For the dimension numbers "rows × contraction by contraction × columns"
  (`DotDims.plain M K N`) the sum over the contraction index, of the left operand at the dot's left index times the
  right operand at its right index, is the textbook sum `∑ i, l (p, i) · r (i, q)` at output entry `(p, q)`: the
  contraction shape has one axis of extent `K`, and the two operand indices at contraction position `i` are
  `(p, i)` and `(i, q)`. Both a `tpu.matmul` into a zero accumulator and a host `dot_general` are this sum at the
  exact values, so each reads at an entry as the textbook sum.
-/
import Idealize.ShloMosaic.PureOps.Ideal.Laws
import Idealize.ShloMosaic.Lib.ValueIdx

noncomputable section

namespace Cert.LibDot

open Idealize.ShloMosaic Idealize.ShloMosaic.ValueIdx

/-- The left index of a plain product at output `(p, q)` and contraction position `i` is `(p, i)`. -/
theorem plain_lhsIdx (M K N : Nat) (p : Fin M) (q : Fin N) (i : Fin K) :
    (DotDims.plain M K N).lhsIdx (ix2 p q) ((contrEquiv1 (DotDims.plain M K N) K rfl rfl).symm i) = ix2 p i := by
  funext a
  apply Fin.ext
  match a with
  | ⟨0, _⟩ => rfl
  | ⟨1, _⟩ =>
    refine ((DotDims.plain M K N).lhsIdx_val_of_single (cl := (1 : Fin 2)) rfl (ix2 p q) _).trans ?_
    exact contrEquiv1_symm_val (DotDims.plain M K N) K rfl rfl i

/-- The right index of a plain product at output `(p, q)` and contraction position `i` is `(i, q)`. -/
theorem plain_rhsIdx (M K N : Nat) (p : Fin M) (q : Fin N) (i : Fin K) :
    (DotDims.plain M K N).rhsIdx (ix2 p q) ((contrEquiv1 (DotDims.plain M K N) K rfl rfl).symm i) = ix2 i q := by
  funext a
  apply Fin.ext
  match a with
  | ⟨0, _⟩ =>
    refine ((DotDims.plain M K N).rhsIdx_val_of_single (cr := (0 : Fin 2)) rfl (ix2 p q) _).trans ?_
    exact contrEquiv1_symm_val (DotDims.plain M K N) K rfl rfl i
  | ⟨1, _⟩ => rfl

/-- The contraction sum of a plain product at output `(p, q)` is `∑ i, l (p, i) · r (i, q)`. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ i : Fin K, l (ix2 p i) * r (ix2 i q) := by
  rw [← Equiv.sum_comp (contrEquiv1 (DotDims.plain M K N) K rfl rfl).symm]
  refine Finset.sum_congr rfl fun i _ => ?_
  rw [plain_lhsIdx, plain_rhsIdx]

end Cert.LibDot

end
-- ==== Proof.LibRows.lean ====
/-
  Rows of dense layers, read entry by entry on the extended reals. A matrix product with the plain dimension
  numbers (rows × contraction by contraction × columns), taken by the matrix unit into a zero accumulator or by the
  host, is the textbook sum `∑ i, l (p, i) · r (i, q)` at entry `(p, q)`; a bias vector made a row and repeated down
  the rows reads its entry `q` at `(p, q)`, in the kernel's spelling and in the host's; a scalar broadcast reads the
  scalar everywhere; two 64-column arrays side by side read the first below column 64 and the second from there on.
  With these one entry of a two-layer perceptron's output depends on one row of its input (`mlpRow`).
-/
import proofs.«136353_j58171037057290_1_alg».proof.Proof.LibDot
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibRows

open Idealize.ShloMosaic Idealize.ShloMosaic.ValueIdx

/-- A product into a zero accumulator, for dimension numbers that are the plain ones, read at an entry. -/
theorem matmul_plain_apply {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (q : Fin N) :
    matmul D prec l r (constant ⟨2, ![M, N]⟩ .f32 0x00000000#32) (ix2 p q) = ∑ i : Fin K, l (ix2 p i) * r (ix2 i q) := by
  subst hD
  refine (Ideal.matmul_constant_zero_apply (DotDims.plain M K N) prec l r (ix2 p q)).trans ?_
  exact Cert.LibDot.plain_sum M K N l r p q

/-- The host's product with the plain dimension numbers, read at an entry: the same sum. -/
theorem dotGeneral_plain_apply {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (q : Fin N) :
    Host.dotGeneral D prec l r (ix2 p q) = ∑ i : Fin K, l (ix2 p i) * r (ix2 i q) := by
  subst hD
  refine (Ideal.dotGeneral_apply (DotDims.plain M K N) prec .single l r (ix2 p q)).trans ?_
  exact Cert.LibDot.plain_sum M K N l r p q

/-- A vector of `b` entries made a row and repeated down `a` rows reads, at `(p, c)`, the vector's entry `c`. -/
theorem rowBias_apply {α : Type} {a b : Nat} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) := by
  rw [broadcastTo_1b_ab_apply, shapeCast_a_1a_apply]

/-- The host's spelling of the same: a `[b]` vector broadcast along axis 1 to `[1, b]`, then along both to `[a, b]`. -/
theorem rowBiasInDim_apply {α : Type} {a b : Nat} (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 v) (ix2 p c) = v (ix1 c) := by
  rw [broadcastInDim_apply ![0, 1] h2 _ (ix2 p c) (ix2 (0 : Fin 1) c) (fun ax => by
    match ax with
    | ⟨0, _⟩ => rfl
    | ⟨1, _⟩ =>
      show c.val = if b = 1 then 0 else c.val
      split
      · have := c.isLt; omega
      · rfl)]
  rw [broadcastInDim_apply ![1] h1 v (ix2 (0 : Fin 1) c) (ix1 c) (fun ax => by
    match ax with
    | ⟨0, _⟩ =>
      show c.val = if b = 1 then 0 else c.val
      split
      · have := c.isLt; omega
      · rfl)]

/-- A scalar broadcast to any shape reads the scalar at every index. -/
theorem scalarInDim_apply {α : Type} {s : Shape} (x : (⟨0, ![]⟩ : Shape).Idx → α) (h : (⟨0, ![]⟩ : Shape).BroadcastsInDim s ![]) (j : s.Idx) :
    broadcastInDim s ![] h x j = x ix0 := by
  rw [broadcastInDim_apply ![] h x j ix0 (fun ax => ax.elim0)]

/-- The leaky rectifier on one extended real. -/
def lk (x : Ideal .f32) : Ideal .f32 :=
  Scalar.select (FloatOps.cmpf .oge x (Ideal.ofBits .f32 0x00000000#32)) x (Ideal.ofBits .f32 0x3C23D70A#32 * x)

/-- One entry of a two-layer perceptron's row: from the row `A` of the input. -/
def mlpRow {K H N : Nat} (A : Fin K → EReal) (w1 : (⟨2, ![K, H]⟩ : Shape).Idx → EReal) (b1 : (⟨1, ![H]⟩ : Shape).Idx → EReal)
    (w2 : (⟨2, ![H, N]⟩ : Shape).Idx → EReal) (b2 : (⟨1, ![N]⟩ : Shape).Idx → EReal) (q : Fin N) : EReal :=
  (∑ k : Fin H, lk ((∑ i : Fin K, A i * w1 (ix2 i k)) + b1 (ix1 k)) * w2 (ix2 k q)) + b2 (ix1 q)

/-- Two arrays of 64 columns side by side: column `i` is the first array's below 64 and the second's column `i - 64` from there on. -/
theorem cat_apply {α : Type} {M : Nat} (a b : (⟨2, ![M, 64]⟩ : Shape).Idx → α)
    (h : Shape.Concatenates [⟨2, ![M, 64]⟩, ⟨2, ![M, 64]⟩] ⟨2, ![M, 128]⟩ 1) (p : Fin M) (i : Fin 128) :
    concatenate ⟨2, ![M, 128]⟩ 1 [⟨⟨2, ![M, 64]⟩, a⟩, ⟨⟨2, ![M, 64]⟩, b⟩] h (ix2 p i)
      = if hi : i.val < 64 then a (ix2 p ⟨i.val, hi⟩) else b (ix2 p ⟨i.val - 64, by have := i.isLt; omega⟩) := by
  split
  · next hi =>
    refine concatenate_pair_apply_left 1 a b h (ix2 p i) rfl (ix2 p ⟨i.val, hi⟩) fun bb => ?_
    match bb with
    | ⟨0, _⟩ => rfl
    | ⟨1, _⟩ => rfl
  · next hi =>
    refine concatenate_pair_apply_right 1 a b h (ix2 p i) rfl rfl (ix2 p ⟨i.val - 64, by have := i.isLt; omega⟩) (fun bb hb => ?_) ?_
    · match bb with
      | ⟨0, _⟩ => rfl
      | ⟨1, _⟩ => exact absurd rfl hb
    · show i.val - 64 + 64 = i.val
      omega

end Cert.LibRows

end
-- ==== Proof.MlpSpec.lean ====
/-
  The dense part of one layer, entry by entry on the extended reals.

  For an input array `a` of `M` rows and 128 columns, weight matrices `w1`, `w2` of 128 by 128 and bias vectors
  `b1`, `b2` of 128 entries, entry `(p, q)` of the layer's output is

      ( ∑ k, max ( (∑ j, a (p, j) · w1 (j, k)) + b1 k ) 0 · w2 (k, q) ) + b2 q .

  It depends on row `p` of `a` only, so the rows of the output can be computed in any grouping: the function of a
  block of rows is the block of the function (`mlp_rows`). The host's spelling of the same layer — two products
  taken by `dot_general`, each bias vector broadcast first to one row and then down the rows, the cut at zero a
  maximum against a broadcast scalar zero — is this function of the whole array (`hostLayer_eq`).
-/
import proofs.«136353_j58171037057290_1_alg».proof.Proof.LibRows

noncomputable section

namespace Cert.Gin

open Idealize.ShloMosaic Idealize.ShloMosaic.ValueIdx

/-- One layer's dense part at an entry: row `i 0` of `a` against `w1`, plus `b1`, cut below at zero, against
    column `i 1` of `w2`, plus `b2`. -/
def mlp {M : Nat} (a : (⟨2, ![M, 128]⟩ : Shape).Idx → EReal) (w1 : (⟨2, ![128, 128]⟩ : Shape).Idx → EReal)
    (b1 : (⟨1, ![128]⟩ : Shape).Idx → EReal) (w2 : (⟨2, ![128, 128]⟩ : Shape).Idx → EReal)
    (b2 : (⟨1, ![128]⟩ : Shape).Idx → EReal) : (⟨2, ![M, 128]⟩ : Shape).Idx → EReal := fun i =>
  (∑ k : Fin 128, max ((∑ j : Fin 128, a (ix2 (i 0) j) * w1 (ix2 j k)) + b1 (ix1 k)) (Ideal.ofBits .f32 0x00000000#32)
      * w2 (ix2 k (i 1))) + b2 (ix1 (i 1))

theorem mlp_apply {M : Nat} (a : (⟨2, ![M, 128]⟩ : Shape).Idx → EReal) (w1 : (⟨2, ![128, 128]⟩ : Shape).Idx → EReal)
    (b1 : (⟨1, ![128]⟩ : Shape).Idx → EReal) (w2 : (⟨2, ![128, 128]⟩ : Shape).Idx → EReal)
    (b2 : (⟨1, ![128]⟩ : Shape).Idx → EReal) (p : Fin M) (q : Fin 128) :
    mlp a w1 b1 w2 b2 (ix2 p q)
      = (∑ k : Fin 128, max ((∑ j : Fin 128, a (ix2 p j) * w1 (ix2 j k)) + b1 (ix1 k)) (Ideal.ofBits .f32 0x00000000#32)
          * w2 (ix2 k q)) + b2 (ix1 q) := rfl

/-- The output's row `p` is a function of the input's row `p`: if `a'` holds at row `p'` what `a` holds at row
    `p`, the two outputs agree there. -/
theorem mlp_rows {M M' : Nat} (a : (⟨2, ![M, 128]⟩ : Shape).Idx → EReal) (a' : (⟨2, ![M', 128]⟩ : Shape).Idx → EReal)
    (w1 : (⟨2, ![128, 128]⟩ : Shape).Idx → EReal) (b1 : (⟨1, ![128]⟩ : Shape).Idx → EReal)
    (w2 : (⟨2, ![128, 128]⟩ : Shape).Idx → EReal) (b2 : (⟨1, ![128]⟩ : Shape).Idx → EReal)
    (p : Fin M) (p' : Fin M') (q : Fin 128) (h : ∀ j : Fin 128, a' (ix2 p' j) = a (ix2 p j)) :
    mlp a' w1 b1 w2 b2 (ix2 p' q) = mlp a w1 b1 w2 b2 (ix2 p q) := by
  rw [mlp_apply, mlp_apply]
  simp only [h]

/-- The host's spelling of the layer is `mlp` of the whole array. -/
theorem hostLayer_eq {M : Nat} (D : DotDims ⟨2, ![M, 128]⟩ ⟨2, ![128, 128]⟩ ⟨2, ![M, 128]⟩) (hD : D = DotDims.plain M 128 128)
    (a : FVec Ideal ⟨2, ![M, 128]⟩ .f32) (w1 : FVec Ideal ⟨2, ![128, 128]⟩ .f32) (b1 : FVec Ideal ⟨1, ![128]⟩ .f32)
    (w2 : FVec Ideal ⟨2, ![128, 128]⟩ .f32) (b2 : FVec Ideal ⟨1, ![128]⟩ .f32)
    (h1 : (⟨1, ![128]⟩ : Shape).BroadcastsInDim ⟨2, ![1, 128]⟩ ![1])
    (h2 : (⟨2, ![1, 128]⟩ : Shape).BroadcastsInDim ⟨2, ![M, 128]⟩ ![0, 1])
    (h0 : (⟨0, ![]⟩ : Shape).BroadcastsInDim ⟨2, ![M, 128]⟩ ![]) :
    addf (Host.dotGeneral D none
          (maximumf (addf (Host.dotGeneral D none a w1)
              (broadcastInDim ⟨2, ![M, 128]⟩ ![0, 1] h2 (broadcastInDim ⟨2, ![1, 128]⟩ ![1] h1 b1)))
            (broadcastInDim ⟨2, ![M, 128]⟩ ![] h0 (constant (F := Ideal) ⟨0, ![]⟩ .f32 0x00000000#32)))
          w2)
        (broadcastInDim ⟨2, ![M, 128]⟩ ![0, 1] h2 (broadcastInDim ⟨2, ![1, 128]⟩ ![1] h1 b2))
      = mlp a w1 b1 w2 b2 := by
  funext i
  obtain ⟨p, q, rfl⟩ : ∃ (p : Fin M) (q : Fin 128), i = ix2 p q := ⟨i 0, i 1, eq_ix2 i⟩
  rw [mlp_apply]
  refine congrArg₂ (· + ·) ?_ (Cert.LibRows.rowBiasInDim_apply b2 h1 h2 p q)
  refine (Cert.LibRows.dotGeneral_plain_apply D hD none _ w2 p q).trans ?_
  refine Finset.sum_congr rfl fun k _ => congrArg₂ (· * ·) ?_ rfl
  refine congrArg₂ max ?_ (Cert.LibRows.scalarInDim_apply _ h0 (ix2 p k))
  refine congrArg₂ (· + ·) ?_ (Cert.LibRows.rowBiasInDim_apply b1 h1 h2 p k)
  exact Cert.LibRows.dotGeneral_plain_apply D hD none a w1 p k

end Cert.Gin

end
-- ==== Proof.HostTerms.lean ====
/-
  The network both programs compute, as one function of the argument arrays.

  A layer sends the node features `x` (50000 nodes, 128 features) to the dense part (`mlp`) of
  `x + S x`, where `S x` sums, into each node, the feature rows of the sources of the edges that point at it:
  the rows of `x` are gathered at the edge list's first row (an index below zero wrapped by adding 50000, as array
  indexing does), and scattered with addition, into a zero array, at the edge list's second row. Layer `l` uses
  slice `l` of each stacked weight and bias array. The network is four such layers in a row.

  The gather and the scatter are never opened: both programs apply the same two operations to the same operands, so
  they stay one unread function `agg` on both sides.
-/
import proofs.«136353_j58171037057290_1_alg».proof.Proof.MlpSpec
import Idealize.ShloMosaic.PureOps.Ideal

set_option synthInstance.maxSize 4096

noncomputable section

namespace Cert.Gin

open Idealize.ShloMosaic

abbrev Nodes : Shape := ⟨2, ![50000, 128]⟩
abbrev Edges : Shape := ⟨2, ![2, 800000]⟩
abbrev EdgeRow : Shape := ⟨2, ![1, 800000]⟩
abbrev EdgeVec : Shape := ⟨1, ![800000]⟩
abbrev EdgeCol : Shape := ⟨2, ![800000, 1]⟩
abbrev Msgs : Shape := ⟨2, ![800000, 128]⟩
abbrev Scalar0 : Shape := ⟨0, ![]⟩
abbrev Mats : Shape := ⟨3, ![4, 128, 128]⟩
abbrev Mat1 : Shape := ⟨3, ![1, 128, 128]⟩
abbrev Mat : Shape := ⟨2, ![128, 128]⟩
abbrev Biases : Shape := ⟨2, ![4, 128]⟩
abbrev Bias1 : Shape := ⟨2, ![1, 128]⟩
abbrev BiasVec : Shape := ⟨1, ![128]⟩

variable {F : FTy → Type} [FloatOps F]

/-- Row `r` of the edge list, as a vector of 800000 node numbers. -/
def edgeRow (r : Nat) (h : Edges.Slices ![r, 0] EdgeRow) (e : (⟨Edges, .i32⟩ : BufTy).Contents (Elt F)) :
    (⟨EdgeVec, .i32⟩ : BufTy).Contents (Elt F) :=
  shapeCast EdgeVec (extractStridedSlice EdgeRow ![r, 0] e h) (by decide)

/-- The gather's index column: each source number, one below zero wrapped by adding 50000. -/
def srcCol (e1 : (⟨EdgeVec, .i32⟩ : BufTy).Contents (Elt F)) : (⟨EdgeCol, .i32⟩ : BufTy).Contents (Elt F) :=
  broadcastInDim EdgeCol ![0] (by decide)
    (select (cmpi .slt e1 (broadcastInDim EdgeVec ![] (by decide) (constantI Scalar0 32 0#32)))
      (addi e1 (broadcastInDim EdgeVec ![] (by decide) (constantI Scalar0 32 50000#32))) e1)

/-- Rows of the features picked by an index column. -/
def gatherRows : GatherDims Nodes EdgeCol Msgs where
  offsetDims := [1]
  collapsedSliceDims := [0]
  operandBatchingDims := []
  startIndicesBatchingDims := []
  startIndexMap := [0]
  indexVectorDim := 1
  sliceSizes := ![1, 128]
  wf := by decide

/-- Rows added into the rows an index column names. -/
def scatterRows : ScatterDims Nodes EdgeCol Msgs where
  updateWindowDims := [1]
  insertedWindowDims := [0]
  scatterDimsToOperandDims := [0]
  indexVectorDim := 1
  wf := by decide

/-- The features plus, at each node, the sum of the feature rows of its in-edges' sources. -/
def agg (x : (⟨Nodes, .f32⟩ : BufTy).Contents (Elt F)) (src dst : (⟨EdgeVec, .i32⟩ : BufTy).Contents (Elt F)) :
    (⟨Nodes, .f32⟩ : BufTy).Contents (Elt F) :=
  addf x (Host.scatterAdd scatterRows
    (broadcastInDim Nodes ![] (by decide) (constant Scalar0 .f32 0x00000000#32))
    (broadcastInDim EdgeCol ![0] (by decide) dst)
    (Host.gather gatherRows x (srcCol src)))

/-- Slice `l` of a stack of four weight matrices. -/
def matSlice (l : Nat) (h : Mats.Slices ![l, 0, 0] Mat1) (w : (⟨Mats, .f32⟩ : BufTy).Contents (Elt F)) :
    (⟨Mat, .f32⟩ : BufTy).Contents (Elt F) :=
  shapeCast Mat (extractStridedSlice Mat1 ![l, 0, 0] w h) (by decide)

/-- Slice `l` of a stack of four bias vectors. -/
def biasSlice (l : Nat) (h : Biases.Slices ![l, 0] Bias1) (b : (⟨Biases, .f32⟩ : BufTy).Contents (Elt F)) :
    (⟨BiasVec, .f32⟩ : BufTy).Contents (Elt F) :=
  shapeCast BiasVec (extractStridedSlice Bias1 ![l, 0] b h) (by decide)

/-- Layer `l` of the network on the extended reals. -/
def layer (l : Nat) (hw : Mats.Slices ![l, 0, 0] Mat1) (hb : Biases.Slices ![l, 0] Bias1)
    (x : (⟨Nodes, .f32⟩ : BufTy).Contents (Elt Ideal)) (e : (⟨Edges, .i32⟩ : BufTy).Contents (Elt Ideal))
    (w1 : (⟨Mats, .f32⟩ : BufTy).Contents (Elt Ideal)) (b1 : (⟨Biases, .f32⟩ : BufTy).Contents (Elt Ideal))
    (w2 : (⟨Mats, .f32⟩ : BufTy).Contents (Elt Ideal)) (b2 : (⟨Biases, .f32⟩ : BufTy).Contents (Elt Ideal)) :
    (⟨Nodes, .f32⟩ : BufTy).Contents (Elt Ideal) :=
  mlp (agg x (edgeRow 0 (by decide) e) (edgeRow 1 (by decide) e))
    (matSlice l hw w1) (biasSlice l hb b1) (matSlice l hw w2) (biasSlice l hb b2)

/-- The four layers in a row. -/
def network (x : (⟨Nodes, .f32⟩ : BufTy).Contents (Elt Ideal)) (e : (⟨Edges, .i32⟩ : BufTy).Contents (Elt Ideal))
    (w1 : (⟨Mats, .f32⟩ : BufTy).Contents (Elt Ideal)) (b1 : (⟨Biases, .f32⟩ : BufTy).Contents (Elt Ideal))
    (w2 : (⟨Mats, .f32⟩ : BufTy).Contents (Elt Ideal)) (b2 : (⟨Biases, .f32⟩ : BufTy).Contents (Elt Ideal)) :
    (⟨Nodes, .f32⟩ : BufTy).Contents (Elt Ideal) :=
  layer 3 (by decide) (by decide)
    (layer 2 (by decide) (by decide)
      (layer 1 (by decide) (by decide)
        (layer 0 (by decide) (by decide) x e w1 b1 w2 b2) e w1 b1 w2 b2) e w1 b1 w2 b2) e w1 b1 w2 b2

end Cert.Gin

end
-- ==== Proof.Payload.lean ====
/-
  What one call of a region's body stores, as a function of the five blocks it loads.

  The body loads a block `x0` of 5000 rows of the aggregated features, the two weight matrices `x1`, `x3` and the two
  bias vectors as one-row arrays `x2`, `x4`, and stores
  `(max (x0 · x1 + x2) 0) · x3 + x4`, the products taken by the matrix unit into zero accumulators, each bias row
  repeated down the 5000 rows. The changes of float format in between are the identity on the extended reals, so
  entry by entry this is the dense part of a layer (`Cert.Gin.mlp`) of the block, with each bias row read as a
  vector (`rowVec`). The four regions' bodies are the same text, so their stored values are the same function.
-/
import proofs.«136353_j58171037057290_1_alg».proof.Proof.Gen.KernelIdeal.Skeleton
import proofs.«136353_j58171037057290_1_alg».proof.Proof.MlpSpec
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx

/-- A one-row array read as a vector: entry `k` is the row's entry `(0, k)`. -/
def rowVec (r : (⟨2, ![1, 128]⟩ : Shape).Idx → EReal) : (⟨1, ![128]⟩ : Shape).Idx → EReal :=
  fun i => r (ix2 (0 : Fin 1) (i 0))

/-- A vector recast as a one-row array and read back as a vector is the vector. -/
theorem rowVec_shapeCast (v : (⟨1, ![128]⟩ : Shape).Idx → EReal) (h : (⟨1, ![128]⟩ : Shape).ShapeCasts ⟨2, ![1, 128]⟩) :
    rowVec (shapeCast ⟨2, ![1, 128]⟩ v h) = v := by
  funext i
  obtain ⟨k, rfl⟩ : ∃ k : Fin 128, i = ix1 k := ⟨i 0, eq_ix1 i⟩
  exact shapeCast_a_1a_apply v h 0 k

/-- The stored value of region 0's body is the dense part of a layer of its loaded block. -/
theorem pay0_eq (x0 : Vec Ideal S5000x128 .f32) (x1 : Vec Ideal S128x128 .f32) (x2 : Vec Ideal S1x128 .f32)
    (x3 : Vec Ideal S128x128 .f32) (x4 : Vec Ideal S1x128 .f32) :
    k0_pay1 x0 x1 x2 x3 x4 = Cert.Gin.mlp x0 x1 (rowVec x2) x3 (rowVec x4) := by
  funext i
  obtain ⟨p, q, rfl⟩ : ∃ (p : Fin 5000) (q : Fin 128), i = ix2 p q := ⟨i 0, i 1, eq_ix2 i⟩
  rw [Cert.Gin.mlp_apply]
  unfold k0_pay1
  simp only [shapeCast_self]
  refine congrArg₂ (· + ·) ?_ (broadcastTo_1b_ab_apply x4 _ p q)
  refine (Cert.LibRows.matmul_plain_apply _ rfl none _ _ p q).trans ?_
  refine Finset.sum_congr rfl fun k _ => congrArg₂ (· * ·) ?_ rfl
  refine congrArg₂ max ?_ rfl
  refine congrArg₂ (· + ·) ?_ (broadcastTo_1b_ab_apply x2 _ p k)
  exact Cert.LibRows.matmul_plain_apply _ rfl none _ _ p k

/-- The other three regions' bodies store the same function of their blocks. -/
theorem pay1_eq : @k1_pay1 Ideal _ = @k0_pay1 Ideal _ := rfl
theorem pay2_eq : @k2_pay1 Ideal _ = @k0_pay1 Ideal _ := rfl
theorem pay3_eq : @k3_pay1 Ideal _ = @k0_pay1 Ideal _ := rfl

end Cert.KernelIdeal.Body

end
-- ==== Proof.Region0.lean ====
/-
  Layer 0's dense part on the device, from its blocks to its whole output array.

  The region walks ten grid points. At point `t` it loads rows `5000 t … 5000 t + 4999` of the aggregated features
  (all 128 columns), the two weight matrices and the two bias rows whole, and writes back rows
  `5000 t … 5000 t + 4999` of the output. What it writes back is the dense part of a layer (`Cert.Gin.mlp`) of the
  loaded rows, and that function computes each output row from the input row of the same number; so what point `t`
  writes back is block `t` of ONE whole-array function `G`: `mlp` of the whole aggregated array. Row `r` of the
  output lies in the block of point `r / 5000`, so the ten blocks cover the array, and after the region the output
  array holds `G`.
-/
import proofs.«136353_j58171037057290_1_alg».proof.Proof.Gen.KernelIdeal.Frame
import proofs.«136353_j58171037057290_1_alg».proof.Proof.Payload
import Idealize.ShloMosaic.Lib.Pipeline.Value

set_option maxRecDepth 16384

noncomputable section

namespace Cert.KernelIdeal.Region0

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The block positions over the grid: the feature and output windows sit at block `(t, 0)`, the weights and bias
    rows at block `(0, 0)`. -/
theorem block_positions : ∀ t : Fin cfg0.N, t.val < 10
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Every block row of the output is some point's. -/
theorem block_onto : ∀ q0 : Fin 10, ∃ t : Fin cfg0.N, win0_5.index t = ![q0.val, 0] :=
  (by decide +kernel : ∀ q0 : Fin 10, ∃ t : Fin grid0.N, win0_5.index t = ![q0.val, 0])

/-- The whole output array: the dense part of the layer, of the arrays the region finds. -/
def G (c : Dev nD) : S50000x128.Idx → EReal :=
  Cert.Gin.mlp (V c main_v14) (V c main_v16) (rowVec (V c main_v23)) (V c main_v20) (rowVec (V c main_v24))

/-- The weight and bias windows' blocks are their whole arrays. -/
theorem w1_block (c : Dev nD) (t : Fin cfg0.N) : iblk0 V c 1 t = V c main_v16 := by
  obtain ⟨_, _, _, e10, e11, _⟩ := block_positions t
  funext y
  show V c main_v16 (((cfg0.win 1).blk t).view.emb y) = V c main_v16 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

theorem b1_block (c : Dev nD) (t : Fin cfg0.N) : iblk0 V c 2 t = V c main_v23 := by
  obtain ⟨_, _, _, _, _, e20, e21, _⟩ := block_positions t
  funext y
  show V c main_v23 (((cfg0.win 2).blk t).view.emb y) = V c main_v23 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

theorem w2_block (c : Dev nD) (t : Fin cfg0.N) : iblk0 V c 3 t = V c main_v20 := by
  obtain ⟨_, _, _, _, _, _, _, e30, e31, _⟩ := block_positions t
  funext y
  show V c main_v20 (((cfg0.win 3).blk t).view.emb y) = V c main_v20 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem b2_block (c : Dev nD) (t : Fin cfg0.N) : iblk0 V c 4 t = V c main_v24 := by
  obtain ⟨_, _, _, _, _, _, _, _, _, e40, e41, _⟩ := block_positions t
  funext y
  show V c main_v24 (((cfg0.win 4).blk t).view.emb y) = V c main_v24 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- Row `p` of the feature block at point `t` is row `5000 t + p` of the feature array. -/
theorem feature_row (c : Dev nD) (t : Fin cfg0.N) (p : Fin 5000) (j : Fin 128) (r : Fin 50000)
    (hr : r.val = t.val * 5000 + p.val) : iblk0 V c 0 t (ix2 p j) = V c main_v14 (ix2 r j) := by
  obtain ⟨_, e00, e01, _⟩ := block_positions t
  show V c main_v14 (((cfg0.win 0).blk t).view.emb (ix2 p j)) = V c main_v14 (ix2 r j)
  refine congrArg _ (funext fun a => Fin.ext ?_)
  match a with
  | ⟨0, _⟩ => show win0_0.index t (0 : Fin 2) * 5000 + 1 * p.val = r.val; omega
  | ⟨1, _⟩ => show win0_0.index t (1 : Fin 2) * 128 + 1 * j.val = j.val; omega

/-- Entry `(p, q)` of the output block at point `t` is entry `(5000 t + p, q)` of the output array. -/
theorem output_entry (t : Fin cfg0.N) (p : Fin 5000) (q : Fin 128) (r : Fin 50000)
    (hr : r.val = t.val * 5000 + p.val) : ((cfg0.win 5).blk t).view.emb (ix2 p q) = ix2 r q := by
  obtain ⟨_, _, _, _, _, _, _, _, _, _, _, e50, e51⟩ := block_positions t
  funext a
  apply Fin.ext
  match a with
  | ⟨0, _⟩ => show win0_5.index t (0 : Fin 2) * 5000 + 1 * p.val = r.val; omega
  | ⟨1, _⟩ => show win0_5.index t (1 : Fin 2) * 128 + 1 * q.val = q.val; omega

/-- What point `t` writes back is block `t` of `G`. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero zero_offsets]
  simp only [View.ld_unit_zero (S := S5000x128) zero_offsets, View.ld_unit_zero (S := S128x128) zero_offsets,
    View.ld_unit_zero (S := S1x128) zero_offsets]
  rw [pay0_eq, w1_block, b1_block, w2_block, b2_block]
  obtain ⟨hN, _⟩ := block_positions t
  funext y
  obtain ⟨p, q, rfl⟩ : ∃ (p : Fin 5000) (q : Fin 128), y = ix2 p q := ⟨y 0, y 1, eq_ix2 y⟩
  have hp : p.val < 5000 := p.isLt
  show Cert.Gin.mlp (iblk0 V c 0 t) (V c main_v16) (rowVec (V c main_v23)) (V c main_v20) (rowVec (V c main_v24)) (ix2 p q)
    = G V c (((cfg0.win 5).blk t).view.emb (ix2 p q))
  refine Eq.trans ?_ (congrArg (G V c) (output_entry t p q ⟨t.val * 5000 + p.val, by omega⟩ rfl)).symm
  exact Cert.Gin.mlp_rows (V c main_v14) (iblk0 V c 0 t) _ _ _ _ ⟨t.val * 5000 + p.val, by omega⟩ p q
    (fun j => feature_row V c t p j ⟨t.val * 5000 + p.val, by omega⟩ rfl)

/-- An index of the output array is in point `t`'s block iff each coordinate is in the block's range. -/
theorem mem_block (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v25).slice (win0_5.rect t)).set ↔ _
  rw [View.set_slice_whole, Rect.mem_set_unit]
  exact Iff.rfl

/-- Row `r` of the output lies in the block of point `r / 5000`: the blocks cover the array. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := block_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_block]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 128 ≤ (i 1).val ∧ (i 1).val < win0_5.index t (1 : Fin 2) * 128 + 128
    omega

/-- After the region its output array holds `G`. -/
theorem final (c : Dev nD) : (dat0 V c).arrAt 5 cfg0.N = G V c :=
  (dat0 V c).arrAt_eq_of_cover 5 (G V c) (fun t _ => flushed_eq V c t) cover

end Cert.KernelIdeal.Region0

end
-- ==== Proof.Region1.lean ====
/-
  Layer 1's dense part on the device, from its blocks to its whole output array.

  The region walks ten grid points. At point `t` it loads rows `5000 t … 5000 t + 4999` of the aggregated features
  (all 128 columns), the two weight matrices and the two bias rows whole, and writes back rows
  `5000 t … 5000 t + 4999` of the output. What it writes back is the dense part of a layer (`Cert.Gin.mlp`) of the
  loaded rows, and that function computes each output row from the input row of the same number; so what point `t`
  writes back is block `t` of ONE whole-array function `G`: `mlp` of the whole aggregated array. Row `r` of the
  output lies in the block of point `r / 5000`, so the ten blocks cover the array, and after the region the output
  array holds `G`.
-/
import proofs.«136353_j58171037057290_1_alg».proof.Proof.Gen.KernelIdeal.Frame
import proofs.«136353_j58171037057290_1_alg».proof.Proof.Payload
import Idealize.ShloMosaic.Lib.Pipeline.Value

set_option maxRecDepth 16384

noncomputable section

namespace Cert.KernelIdeal.Region1

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The block positions over the grid: the feature and output windows sit at block `(t, 0)`, the weights and bias
    rows at block `(0, 0)`. -/
theorem block_positions : ∀ t : Fin cfg1.N, t.val < 10
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Every block row of the output is some point's. -/
theorem block_onto : ∀ q0 : Fin 10, ∃ t : Fin cfg1.N, win1_5.index t = ![q0.val, 0] :=
  (by decide +kernel : ∀ q0 : Fin 10, ∃ t : Fin grid1.N, win1_5.index t = ![q0.val, 0])

/-- The whole output array: the dense part of the layer, of the arrays the region finds. -/
def G (c : Dev nD) : S50000x128.Idx → EReal :=
  Cert.Gin.mlp (V c main_v36) (V c main_v38) (rowVec (V c main_v45)) (V c main_v42) (rowVec (V c main_v46))

/-- The weight and bias windows' blocks are their whole arrays. -/
theorem w1_block (c : Dev nD) (t : Fin cfg1.N) : iblk1 V c 1 t = V c main_v38 := by
  obtain ⟨_, _, _, e10, e11, _⟩ := block_positions t
  funext y
  show V c main_v38 (((cfg1.win 1).blk t).view.emb y) = V c main_v38 y
  refine congrArg _ (funext fun a => Fin.ext ?_)
  match a with
  | ⟨0, _⟩ => show win1_1.index t (0 : Fin 2) * 128 + 1 * (y 0).val = (y 0).val; omega
  | ⟨1, _⟩ => show win1_1.index t (1 : Fin 2) * 128 + 1 * (y 1).val = (y 1).val; omega

theorem b1_block (c : Dev nD) (t : Fin cfg1.N) : iblk1 V c 2 t = V c main_v45 := by
  obtain ⟨_, _, _, _, _, e20, e21, _⟩ := block_positions t
  funext y
  show V c main_v45 (((cfg1.win 2).blk t).view.emb y) = V c main_v45 y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega

theorem w2_block (c : Dev nD) (t : Fin cfg1.N) : iblk1 V c 3 t = V c main_v42 := by
  obtain ⟨_, _, _, _, _, _, _, e30, e31, _⟩ := block_positions t
  funext y
  show V c main_v42 (((cfg1.win 3).blk t).view.emb y) = V c main_v42 y
  refine congrArg _ (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

theorem b2_block (c : Dev nD) (t : Fin cfg1.N) : iblk1 V c 4 t = V c main_v46 := by
  obtain ⟨_, _, _, _, _, _, _, _, _, e40, e41, _⟩ := block_positions t
  funext y
  show V c main_v46 (((cfg1.win 4).blk t).view.emb y) = V c main_v46 y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- Row `p` of the feature block at point `t` is row `5000 t + p` of the feature array. -/
theorem feature_row (c : Dev nD) (t : Fin cfg1.N) (p : Fin 5000) (j : Fin 128) (r : Fin 50000)
    (hr : r.val = t.val * 5000 + p.val) : iblk1 V c 0 t (ix2 p j) = V c main_v36 (ix2 r j) := by
  obtain ⟨_, e00, e01, _⟩ := block_positions t
  show V c main_v36 (((cfg1.win 0).blk t).view.emb (ix2 p j)) = V c main_v36 (ix2 r j)
  refine congrArg _ (funext fun a => Fin.ext ?_)
  match a with
  | ⟨0, _⟩ => show win1_0.index t (0 : Fin 2) * 5000 + 1 * p.val = r.val; omega
  | ⟨1, _⟩ => show win1_0.index t (1 : Fin 2) * 128 + 1 * j.val = j.val; omega

/-- Entry `(p, q)` of the output block at point `t` is entry `(5000 t + p, q)` of the output array. -/
theorem output_entry (t : Fin cfg1.N) (p : Fin 5000) (q : Fin 128) (r : Fin 50000)
    (hr : r.val = t.val * 5000 + p.val) : ((cfg1.win 5).blk t).view.emb (ix2 p q) = ix2 r q := by
  obtain ⟨_, _, _, _, _, _, _, _, _, _, _, e50, e51⟩ := block_positions t
  funext a
  apply Fin.ext
  match a with
  | ⟨0, _⟩ => show win1_5.index t (0 : Fin 2) * 5000 + 1 * p.val = r.val; omega
  | ⟨1, _⟩ => show win1_5.index t (1 : Fin 2) * 128 + 1 * q.val = q.val; omega

/-- What point `t` writes back is block `t` of `G`. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero zero_offsets]
  simp only [View.ld_unit_zero (S := S5000x128) zero_offsets, View.ld_unit_zero (S := S128x128) zero_offsets,
    View.ld_unit_zero (S := S1x128) zero_offsets]
  rw [show @k1_pay1 Ideal _ = @k0_pay1 Ideal _ from pay1_eq, pay0_eq, w1_block, b1_block, w2_block, b2_block]
  obtain ⟨hN, _⟩ := block_positions t
  funext y
  obtain ⟨p, q, rfl⟩ : ∃ (p : Fin 5000) (q : Fin 128), y = ix2 p q := ⟨y 0, y 1, eq_ix2 y⟩
  have hp : p.val < 5000 := p.isLt
  show Cert.Gin.mlp (iblk1 V c 0 t) (V c main_v38) (rowVec (V c main_v45)) (V c main_v42) (rowVec (V c main_v46)) (ix2 p q)
    = G V c (((cfg1.win 5).blk t).view.emb (ix2 p q))
  refine Eq.trans ?_ (congrArg (G V c) (output_entry t p q ⟨t.val * 5000 + p.val, by omega⟩ rfl)).symm
  exact Cert.Gin.mlp_rows (V c main_v36) (iblk1 V c 0 t) _ _ _ _ ⟨t.val * 5000 + p.val, by omega⟩ p q
    (fun j => feature_row V c t p j ⟨t.val * 5000 + p.val, by omega⟩ rfl)

/-- An index of the output array is in point `t`'s block iff each coordinate is in the block's range. -/
theorem mem_block (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v47).slice (win1_5.rect t)).set ↔ _
  rw [View.set_slice_whole, Rect.mem_set_unit]
  exact Iff.rfl

/-- Row `r` of the output lies in the block of point `r / 5000`: the blocks cover the array. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := block_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_block]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 128 ≤ (i 1).val ∧ (i 1).val < win1_5.index t (1 : Fin 2) * 128 + 128
    omega

/-- After the region its output array holds `G`. -/
theorem final (c : Dev nD) : (dat1 V c).arrAt 5 cfg1.N = G V c :=
  (dat1 V c).arrAt_eq_of_cover 5 (G V c) (fun t _ => flushed_eq V c t) cover

end Cert.KernelIdeal.Region1

end
-- ==== Proof.Region2.lean ====
/-
  Layer 2's dense part on the device, from its blocks to its whole output array.

  The region walks ten grid points. At point `t` it loads rows `5000 t … 5000 t + 4999` of the aggregated features
  (all 128 columns), the two weight matrices and the two bias rows whole, and writes back rows
  `5000 t … 5000 t + 4999` of the output. What it writes back is the dense part of a layer (`Cert.Gin.mlp`) of the
  loaded rows, and that function computes each output row from the input row of the same number; so what point `t`
  writes back is block `t` of ONE whole-array function `G`: `mlp` of the whole aggregated array. Row `r` of the
  output lies in the block of point `r / 5000`, so the ten blocks cover the array, and after the region the output
  array holds `G`.
-/
import proofs.«136353_j58171037057290_1_alg».proof.Proof.Gen.KernelIdeal.Frame
import proofs.«136353_j58171037057290_1_alg».proof.Proof.Payload
import Idealize.ShloMosaic.Lib.Pipeline.Value

set_option maxRecDepth 16384

noncomputable section

namespace Cert.KernelIdeal.Region2

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The block positions over the grid: the feature and output windows sit at block `(t, 0)`, the weights and bias
    rows at block `(0, 0)`. -/
theorem block_positions : ∀ t : Fin cfg2.N, t.val < 10
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Every block row of the output is some point's. -/
theorem block_onto : ∀ q0 : Fin 10, ∃ t : Fin cfg2.N, win2_5.index t = ![q0.val, 0] :=
  (by decide +kernel : ∀ q0 : Fin 10, ∃ t : Fin grid2.N, win2_5.index t = ![q0.val, 0])

/-- The whole output array: the dense part of the layer, of the arrays the region finds. -/
def G (c : Dev nD) : S50000x128.Idx → EReal :=
  Cert.Gin.mlp (V c main_v58) (V c main_v60) (rowVec (V c main_v67)) (V c main_v64) (rowVec (V c main_v68))

/-- The weight and bias windows' blocks are their whole arrays. -/
theorem w1_block (c : Dev nD) (t : Fin cfg2.N) : iblk2 V c 1 t = V c main_v60 := by
  obtain ⟨_, _, _, e10, e11, _⟩ := block_positions t
  funext y
  show V c main_v60 (((cfg2.win 1).blk t).view.emb y) = V c main_v60 y
  refine congrArg _ (funext fun a => Fin.ext ?_)
  match a with
  | ⟨0, _⟩ => show win2_1.index t (0 : Fin 2) * 128 + 1 * (y 0).val = (y 0).val; omega
  | ⟨1, _⟩ => show win2_1.index t (1 : Fin 2) * 128 + 1 * (y 1).val = (y 1).val; omega

theorem b1_block (c : Dev nD) (t : Fin cfg2.N) : iblk2 V c 2 t = V c main_v67 := by
  obtain ⟨_, _, _, _, _, e20, e21, _⟩ := block_positions t
  funext y
  show V c main_v67 (((cfg2.win 2).blk t).view.emb y) = V c main_v67 y
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 128 + 1 * (y 1).val = (y 1).val; omega

theorem w2_block (c : Dev nD) (t : Fin cfg2.N) : iblk2 V c 3 t = V c main_v64 := by
  obtain ⟨_, _, _, _, _, _, _, e30, e31, _⟩ := block_positions t
  funext y
  show V c main_v64 (((cfg2.win 3).blk t).view.emb y) = V c main_v64 y
  refine congrArg _ (funext fun a => Fin.ext ?_)
  match a with
  | ⟨0, _⟩ => show win2_3.index t (0 : Fin 2) * 128 + 1 * (y 0).val = (y 0).val; omega
  | ⟨1, _⟩ => show win2_3.index t (1 : Fin 2) * 128 + 1 * (y 1).val = (y 1).val; omega

theorem b2_block (c : Dev nD) (t : Fin cfg2.N) : iblk2 V c 4 t = V c main_v68 := by
  obtain ⟨_, _, _, _, _, _, _, _, _, e40, e41, _⟩ := block_positions t
  funext y
  show V c main_v68 (((cfg2.win 4).blk t).view.emb y) = V c main_v68 y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- Row `p` of the feature block at point `t` is row `5000 t + p` of the feature array. -/
theorem feature_row (c : Dev nD) (t : Fin cfg2.N) (p : Fin 5000) (j : Fin 128) (r : Fin 50000)
    (hr : r.val = t.val * 5000 + p.val) : iblk2 V c 0 t (ix2 p j) = V c main_v58 (ix2 r j) := by
  obtain ⟨_, e00, e01, _⟩ := block_positions t
  show V c main_v58 (((cfg2.win 0).blk t).view.emb (ix2 p j)) = V c main_v58 (ix2 r j)
  refine congrArg _ (funext fun a => Fin.ext ?_)
  match a with
  | ⟨0, _⟩ => show win2_0.index t (0 : Fin 2) * 5000 + 1 * p.val = r.val; omega
  | ⟨1, _⟩ => show win2_0.index t (1 : Fin 2) * 128 + 1 * j.val = j.val; omega

/-- Entry `(p, q)` of the output block at point `t` is entry `(5000 t + p, q)` of the output array. -/
theorem output_entry (t : Fin cfg2.N) (p : Fin 5000) (q : Fin 128) (r : Fin 50000)
    (hr : r.val = t.val * 5000 + p.val) : ((cfg2.win 5).blk t).view.emb (ix2 p q) = ix2 r q := by
  obtain ⟨_, _, _, _, _, _, _, _, _, _, _, e50, e51⟩ := block_positions t
  funext a
  apply Fin.ext
  match a with
  | ⟨0, _⟩ => show win2_5.index t (0 : Fin 2) * 5000 + 1 * p.val = r.val; omega
  | ⟨1, _⟩ => show win2_5.index t (1 : Fin 2) * 128 + 1 * q.val = q.val; omega

/-- What point `t` writes back is block `t` of `G`. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero zero_offsets]
  simp only [View.ld_unit_zero (S := S5000x128) zero_offsets, View.ld_unit_zero (S := S128x128) zero_offsets,
    View.ld_unit_zero (S := S1x128) zero_offsets]
  rw [show @k2_pay1 Ideal _ = @k0_pay1 Ideal _ from pay2_eq, pay0_eq, w1_block, b1_block, w2_block, b2_block]
  obtain ⟨hN, _⟩ := block_positions t
  funext y
  obtain ⟨p, q, rfl⟩ : ∃ (p : Fin 5000) (q : Fin 128), y = ix2 p q := ⟨y 0, y 1, eq_ix2 y⟩
  have hp : p.val < 5000 := p.isLt
  show Cert.Gin.mlp (iblk2 V c 0 t) (V c main_v60) (rowVec (V c main_v67)) (V c main_v64) (rowVec (V c main_v68)) (ix2 p q)
    = G V c (((cfg2.win 5).blk t).view.emb (ix2 p q))
  refine Eq.trans ?_ (congrArg (G V c) (output_entry t p q ⟨t.val * 5000 + p.val, by omega⟩ rfl)).symm
  exact Cert.Gin.mlp_rows (V c main_v58) (iblk2 V c 0 t) _ _ _ _ ⟨t.val * 5000 + p.val, by omega⟩ p q
    (fun j => feature_row V c t p j ⟨t.val * 5000 + p.val, by omega⟩ rfl)

/-- An index of the output array is in point `t`'s block iff each coordinate is in the block's range. -/
theorem mem_block (t : Fin cfg2.N) (i : S50000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v69).slice (win2_5.rect t)).set ↔ _
  rw [View.set_slice_whole, Rect.mem_set_unit]
  exact Iff.rfl

/-- Row `r` of the output lies in the block of point `r / 5000`: the blocks cover the array. -/
theorem cover (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ := block_onto ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_block]
  intro a
  match a with
  | ⟨0, _⟩ =>
    show win2_5.index t (0 : Fin 2) * 5000 ≤ (i 0).val ∧ (i 0).val < win2_5.index t (0 : Fin 2) * 5000 + 5000
    omega
  | ⟨1, _⟩ =>
    show win2_5.index t (1 : Fin 2) * 128 ≤ (i 1).val ∧ (i 1).val < win2_5.index t (1 : Fin 2) * 128 + 128
    omega

/-- After the region its output array holds `G`. -/
theorem final (c : Dev nD) : (dat2 V c).arrAt 5 cfg2.N = G V c :=
  (dat2 V c).arrAt_eq_of_cover 5 (G V c) (fun t _ => flushed_eq V c t) cover

end Cert.KernelIdeal.Region2

end
-- ==== Proof.Region3.lean ====
/-
  Layer 3's dense part on the device, from its blocks to its whole output array.

  The region walks ten grid points. At point `t` it loads rows `5000 t … 5000 t + 4999` of the aggregated features
  (all 128 columns), the two weight matrices and the two bias rows whole, and writes back rows
  `5000 t … 5000 t + 4999` of the output. What it writes back is the dense part of a layer (`Cert.Gin.mlp`) of the
  loaded rows, and that function computes each output row from the input row of the same number; so what point `t`
  writes back is block `t` of ONE whole-array function `G`: `mlp` of the whole aggregated array. Row `r` of the
  output lies in the block of point `r / 5000`, so the ten blocks cover the array, and after the region the output
  array holds `G`.
-/
import proofs.«136353_j58171037057290_1_alg».proof.Proof.Gen.KernelIdeal.Frame
import proofs.«136353_j58171037057290_1_alg».proof.Proof.Payload
import Idealize.ShloMosaic.Lib.Pipeline.Value

set_option maxRecDepth 16384

noncomputable section

namespace Cert.KernelIdeal.Region3

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The block positions over the grid: the feature and output windows sit at block `(t, 0)`, the weights and bias
    rows at block `(0, 0)`. -/
theorem block_positions : ∀ t : Fin cfg3.N, t.val < 10
    ∧ win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Every block row of the output is some point's. -/
theorem block_onto : ∀ q0 : Fin 10, ∃ t : Fin cfg3.N, win3_5.index t = ![q0.val, 0] :=
  (by decide +kernel : ∀ q0 : Fin 10, ∃ t : Fin grid3.N, win3_5.index t = ![q0.val, 0])

/-- The whole output array: the dense part of the layer, of the arrays the region finds. -/
def G (c : Dev nD) : S50000x128.Idx → EReal :=
  Cert.Gin.mlp (V c main_v80) (V c main_v82) (rowVec (V c main_v89)) (V c main_v86) (rowVec (V c main_v90))

/-- The weight and bias windows' blocks are their whole arrays. -/
theorem w1_block (c : Dev nD) (t : Fin cfg3.N) : iblk3 V c 1 t = V c main_v82 := by
  obtain ⟨_, _, _, e10, e11, _⟩ := block_positions t
  funext y
  show V c main_v82 (((cfg3.win 1).blk t).view.emb y) = V c main_v82 y
  refine congrArg _ (funext fun a => Fin.ext ?_)
  match a with
  | ⟨0, _⟩ => show win3_1.index t (0 : Fin 2) * 128 + 1 * (y 0).val = (y 0).val; omega
  | ⟨1, _⟩ => show win3_1.index t (1 : Fin 2) * 128 + 1 * (y 1).val = (y 1).val; omega

theorem b1_block (c : Dev nD) (t : Fin cfg3.N) : iblk3 V c 2 t = V c main_v89 := by
  obtain ⟨_, _, _, _, _, e20, e21, _⟩ := block_positions t
  funext y
  show V c main_v89 (((cfg3.win 2).blk t).view.emb y) = V c main_v89 y
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 128 + 1 * (y 1).val = (y 1).val; omega

theorem w2_block (c : Dev nD) (t : Fin cfg3.N) : iblk3 V c 3 t = V c main_v86 := by
  obtain ⟨_, _, _, _, _, _, _, e30, e31, _⟩ := block_positions t
  funext y
  show V c main_v86 (((cfg3.win 3).blk t).view.emb y) = V c main_v86 y
  refine congrArg _ (funext fun a => Fin.ext ?_)
  match a with
  | ⟨0, _⟩ => show win3_3.index t (0 : Fin 2) * 128 + 1 * (y 0).val = (y 0).val; omega
  | ⟨1, _⟩ => show win3_3.index t (1 : Fin 2) * 128 + 1 * (y 1).val = (y 1).val; omega

theorem b2_block (c : Dev nD) (t : Fin cfg3.N) : iblk3 V c 4 t = V c main_v90 := by
  obtain ⟨_, _, _, _, _, _, _, _, _, e40, e41, _⟩ := block_positions t
  funext y
  show V c main_v90 (((cfg3.win 4).blk t).view.emb y) = V c main_v90 y
  refine congrArg _ (funext fun a => Fin.ext ?_)
  match a with
  | ⟨0, _⟩ => show win3_4.index t (0 : Fin 2) * 1 + 1 * (y 0).val = (y 0).val; omega
  | ⟨1, _⟩ => show win3_4.index t (1 : Fin 2) * 128 + 1 * (y 1).val = (y 1).val; omega

/-- Row `p` of the feature block at point `t` is row `5000 t + p` of the feature array. -/
theorem feature_row (c : Dev nD) (t : Fin cfg3.N) (p : Fin 5000) (j : Fin 128) (r : Fin 50000)
    (hr : r.val = t.val * 5000 + p.val) : iblk3 V c 0 t (ix2 p j) = V c main_v80 (ix2 r j) := by
  obtain ⟨_, e00, e01, _⟩ := block_positions t
  show V c main_v80 (((cfg3.win 0).blk t).view.emb (ix2 p j)) = V c main_v80 (ix2 r j)
  refine congrArg _ (funext fun a => Fin.ext ?_)
  match a with
  | ⟨0, _⟩ => show win3_0.index t (0 : Fin 2) * 5000 + 1 * p.val = r.val; omega
  | ⟨1, _⟩ => show win3_0.index t (1 : Fin 2) * 128 + 1 * j.val = j.val; omega

/-- Entry `(p, q)` of the output block at point `t` is entry `(5000 t + p, q)` of the output array. -/
theorem output_entry (t : Fin cfg3.N) (p : Fin 5000) (q : Fin 128) (r : Fin 50000)
    (hr : r.val = t.val * 5000 + p.val) : ((cfg3.win 5).blk t).view.emb (ix2 p q) = ix2 r q := by
  obtain ⟨_, _, _, _, _, _, _, _, _, _, _, e50, e51⟩ := block_positions t
  funext a
  apply Fin.ext
  match a with
  | ⟨0, _⟩ => show win3_5.index t (0 : Fin 2) * 5000 + 1 * p.val = r.val; omega
  | ⟨1, _⟩ => show win3_5.index t (1 : Fin 2) * 128 + 1 * q.val = q.val; omega

/-- What point `t` writes back is block `t` of `G`. -/
theorem flushed_eq (c : Dev nD) (t : Fin cfg3.N) :
    (dat3 V c).flushed 5 t = ((cfg3.win 5).blk t).view.read (Elt Ideal) (G V c) := by
  show (cfg3.win 5).cut (grid3.coords t) ((dat3 V c).after 5 t) = _
  rw [after3_5]
  unfold out3_5
  rw [View.canon_unit_zero zero_offsets]
  simp only [View.ld_unit_zero (S := S5000x128) zero_offsets, View.ld_unit_zero (S := S128x128) zero_offsets,
    View.ld_unit_zero (S := S1x128) zero_offsets]
  rw [show @k3_pay1 Ideal _ = @k0_pay1 Ideal _ from pay3_eq, pay0_eq, w1_block, b1_block, w2_block, b2_block]
  obtain ⟨hN, _⟩ := block_positions t
  funext y
  obtain ⟨p, q, rfl⟩ : ∃ (p : Fin 5000) (q : Fin 128), y = ix2 p q := ⟨y 0, y 1, eq_ix2 y⟩
  have hp : p.val < 5000 := p.isLt
  show Cert.Gin.mlp (iblk3 V c 0 t) (V c main_v82) (rowVec (V c main_v89)) (V c main_v86) (rowVec (V c main_v90)) (ix2 p q)
    = G V c (((cfg3.win 5).blk t).view.emb (ix2 p q))
  refine Eq.trans ?_ (congrArg (G V c) (output_entry t p q ⟨t.val * 5000 + p.val, by omega⟩ rfl)).symm
  exact Cert.Gin.mlp_rows (V c main_v80) (iblk3 V c 0 t) _ _ _ _ ⟨t.val * 5000 + p.val, by omega⟩ p q
    (fun j => feature_row V c t p j ⟨t.val * 5000 + p.val, by omega⟩ rfl)

/-- An index of the output array is in point `t`'s block iff each coordinate is in the block's range. -/
theorem mem_block (t : Fin cfg3.N) (i : S50000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v91).slice (win3_5.rect t)).set ↔ _
  rw [View.set_slice_whole, Rect.mem_set_unit]
  exact Iff.rfl

/-- Row `r` of the output lies in the block of point `r / 5000`: the blocks cover the array. -/
theorem cover (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  obtain ⟨t, ht⟩ := block_onto ⟨(i 0).val / 5000, by omega⟩
  have q0 : win3_5.index t (0 : Fin 2) = (i 0).val / 5000 := congrFun ht 0
  have q1 : win3_5.index t (1 : Fin 2) = 0 := congrFun ht 1
  refine ⟨t, flush3_5 t, ?_⟩
  rw [mem_block]
  intro a
  match a with
  | ⟨0, _⟩ =>
    show win3_5.index t (0 : Fin 2) * 5000 ≤ (i 0).val ∧ (i 0).val < win3_5.index t (0 : Fin 2) * 5000 + 5000
    omega
  | ⟨1, _⟩ =>
    show win3_5.index t (1 : Fin 2) * 128 ≤ (i 1).val ∧ (i 1).val < win3_5.index t (1 : Fin 2) * 128 + 128
    omega

/-- After the region its output array holds `G`. -/
theorem final (c : Dev nD) : (dat3 V c).arrAt 5 cfg3.N = G V c :=
  (dat3 V c).arrAt_eq_of_cover 5 (G V c) (fun t _ => flushed_eq V c t) cover

end Cert.KernelIdeal.Region3

end
-- ==== Proof.Stretch0.lean ====
/-
  The host operations before region 0, read at the buffers the region and the later stretches use.

  From any contents `Wv` of the buffers, the stretch leaves: in the region's feature input, the aggregation
  (`Cert.Gin.agg`) of the feature argument along the two rows of the edge list; in its weight inputs, slice 0 of the stacked
  weight arguments; in its bias inputs, slice 0 of the stacked bias arguments recast as one-row arrays; and in the two
  edge-vector buffers the two rows of the edge list, which every later stretch reads again. It writes none of
  the weight and bias arguments, which the later stretches read.
-/
import proofs.«136353_j58171037057290_1_alg».proof.Proof.Gen.KernelIdeal.Launch
import proofs.«136353_j58171037057290_1_alg».proof.Proof.HostTerms
import Idealize.ShloMosaic.Lib.StableHlo.Run

noncomputable section

namespace Cert.KernelIdeal.Stretch0

open Cert.KernelIdeal Cert.KernelIdeal.Gen
open Idealize.ShloMosaic Idealize.ShloMosaic.TcCoe Idealize.ShloMosaic.StableHlo Idealize.SL.Sem

variable (Wv : Valuation τ sig (Elt Ideal))

theorem features : StableHlo.after hostOps0 Wv (Proc.devRef .tc main_v14)
    = Cert.Gin.agg (Wv (Proc.devRef .tc main_arg0)) (Cert.Gin.edgeRow 0 (by decide) (Wv (Proc.devRef .tc main_arg1))) (Cert.Gin.edgeRow 1 (by decide) (Wv (Proc.devRef .tc main_arg1))) := by
  after_results_simp <;> rfl

theorem weights1 : StableHlo.after hostOps0 Wv (Proc.devRef .tc main_v16) = Cert.Gin.matSlice 0 (by decide) (Wv (Proc.devRef .tc main_arg3)) := by
  after_results_simp <;> rfl

theorem bias1 : StableHlo.after hostOps0 Wv (Proc.devRef .tc main_v23)
    = shapeCast Cert.Gin.Bias1 (Cert.Gin.biasSlice 0 (by decide) (Wv (Proc.devRef .tc main_arg4))) (by decide) := by
  after_results_simp <;> rfl

theorem weights2 : StableHlo.after hostOps0 Wv (Proc.devRef .tc main_v20) = Cert.Gin.matSlice 0 (by decide) (Wv (Proc.devRef .tc main_arg5)) := by
  after_results_simp <;> rfl

theorem bias2 : StableHlo.after hostOps0 Wv (Proc.devRef .tc main_v24)
    = shapeCast Cert.Gin.Bias1 (Cert.Gin.biasSlice 0 (by decide) (Wv (Proc.devRef .tc main_arg6))) (by decide) := by
  after_results_simp <;> rfl

theorem sources : StableHlo.after hostOps0 Wv (Proc.devRef .tc main_v1) = Cert.Gin.edgeRow 0 (by decide) (Wv (Proc.devRef .tc main_arg1)) := by
  after_results_simp <;> rfl

theorem targets : StableHlo.after hostOps0 Wv (Proc.devRef .tc main_v3) = Cert.Gin.edgeRow 1 (by decide) (Wv (Proc.devRef .tc main_arg1)) := by
  after_results_simp <;> rfl

theorem keeps_main_arg3 : StableHlo.after hostOps0 Wv (Proc.devRef .tc main_arg3) = Wv (Proc.devRef .tc main_arg3) := by
  after_results_simp <;> rfl

theorem keeps_main_arg4 : StableHlo.after hostOps0 Wv (Proc.devRef .tc main_arg4) = Wv (Proc.devRef .tc main_arg4) := by
  after_results_simp <;> rfl

theorem keeps_main_arg5 : StableHlo.after hostOps0 Wv (Proc.devRef .tc main_arg5) = Wv (Proc.devRef .tc main_arg5) := by
  after_results_simp <;> rfl

theorem keeps_main_arg6 : StableHlo.after hostOps0 Wv (Proc.devRef .tc main_arg6) = Wv (Proc.devRef .tc main_arg6) := by
  after_results_simp <;> rfl

end Cert.KernelIdeal.Stretch0

end
-- ==== Proof.Stretch1.lean ====
/-
  The host operations before region 1, read at the buffers the region and the later stretches use.

  From any contents `Wv` of the buffers, the stretch leaves: in the region's feature input, the aggregation
  (`Cert.Gin.agg`) of the previous region's output along the two edge vectors; in its weight inputs, slice 1 of the stacked
  weight arguments; in its bias inputs, slice 1 of the stacked bias arguments recast as one-row arrays. It writes none of
  the edge vectors or weight and bias arguments, which the later stretches read.
-/
import proofs.«136353_j58171037057290_1_alg».proof.Proof.Gen.KernelIdeal.Launch
import proofs.«136353_j58171037057290_1_alg».proof.Proof.HostTerms
import Idealize.ShloMosaic.Lib.StableHlo.Run

noncomputable section

namespace Cert.KernelIdeal.Stretch1

open Cert.KernelIdeal Cert.KernelIdeal.Gen
open Idealize.ShloMosaic Idealize.ShloMosaic.TcCoe Idealize.ShloMosaic.StableHlo Idealize.SL.Sem

variable (Wv : Valuation τ sig (Elt Ideal))

theorem features : StableHlo.after hostOps1 Wv (Proc.devRef .tc main_v36)
    = Cert.Gin.agg (Wv (Proc.devRef .tc main_v25)) (Wv (Proc.devRef .tc main_v1)) (Wv (Proc.devRef .tc main_v3)) := by
  after_results_simp <;> rfl

theorem weights1 : StableHlo.after hostOps1 Wv (Proc.devRef .tc main_v38) = Cert.Gin.matSlice 1 (by decide) (Wv (Proc.devRef .tc main_arg3)) := by
  after_results_simp <;> rfl

theorem bias1 : StableHlo.after hostOps1 Wv (Proc.devRef .tc main_v45)
    = shapeCast Cert.Gin.Bias1 (Cert.Gin.biasSlice 1 (by decide) (Wv (Proc.devRef .tc main_arg4))) (by decide) := by
  after_results_simp <;> rfl

theorem weights2 : StableHlo.after hostOps1 Wv (Proc.devRef .tc main_v42) = Cert.Gin.matSlice 1 (by decide) (Wv (Proc.devRef .tc main_arg5)) := by
  after_results_simp <;> rfl

theorem bias2 : StableHlo.after hostOps1 Wv (Proc.devRef .tc main_v46)
    = shapeCast Cert.Gin.Bias1 (Cert.Gin.biasSlice 1 (by decide) (Wv (Proc.devRef .tc main_arg6))) (by decide) := by
  after_results_simp <;> rfl

theorem keeps_main_v1 : StableHlo.after hostOps1 Wv (Proc.devRef .tc main_v1) = Wv (Proc.devRef .tc main_v1) := by
  after_results_simp <;> rfl

theorem keeps_main_v3 : StableHlo.after hostOps1 Wv (Proc.devRef .tc main_v3) = Wv (Proc.devRef .tc main_v3) := by
  after_results_simp <;> rfl

theorem keeps_main_arg3 : StableHlo.after hostOps1 Wv (Proc.devRef .tc main_arg3) = Wv (Proc.devRef .tc main_arg3) := by
  after_results_simp <;> rfl

theorem keeps_main_arg4 : StableHlo.after hostOps1 Wv (Proc.devRef .tc main_arg4) = Wv (Proc.devRef .tc main_arg4) := by
  after_results_simp <;> rfl

theorem keeps_main_arg5 : StableHlo.after hostOps1 Wv (Proc.devRef .tc main_arg5) = Wv (Proc.devRef .tc main_arg5) := by
  after_results_simp <;> rfl

theorem keeps_main_arg6 : StableHlo.after hostOps1 Wv (Proc.devRef .tc main_arg6) = Wv (Proc.devRef .tc main_arg6) := by
  after_results_simp <;> rfl

end Cert.KernelIdeal.Stretch1

end
-- ==== Proof.Stretch2.lean ====
/-
  The host operations before region 2, read at the buffers the region and the later stretches use.

  From any contents `Wv` of the buffers, the stretch leaves: in the region's feature input, the aggregation
  (`Cert.Gin.agg`) of the previous region's output along the two edge vectors; in its weight inputs, slice 2 of the stacked
  weight arguments; in its bias inputs, slice 2 of the stacked bias arguments recast as one-row arrays. It writes none of
  the edge vectors or weight and bias arguments, which the later stretches read.
-/
import proofs.«136353_j58171037057290_1_alg».proof.Proof.Gen.KernelIdeal.Launch
import proofs.«136353_j58171037057290_1_alg».proof.Proof.HostTerms
import Idealize.ShloMosaic.Lib.StableHlo.Run

noncomputable section

namespace Cert.KernelIdeal.Stretch2

open Cert.KernelIdeal Cert.KernelIdeal.Gen
open Idealize.ShloMosaic Idealize.ShloMosaic.TcCoe Idealize.ShloMosaic.StableHlo Idealize.SL.Sem

variable (Wv : Valuation τ sig (Elt Ideal))

theorem features : StableHlo.after hostOps2 Wv (Proc.devRef .tc main_v58)
    = Cert.Gin.agg (Wv (Proc.devRef .tc main_v47)) (Wv (Proc.devRef .tc main_v1)) (Wv (Proc.devRef .tc main_v3)) := by
  after_results_simp <;> rfl

theorem weights1 : StableHlo.after hostOps2 Wv (Proc.devRef .tc main_v60) = Cert.Gin.matSlice 2 (by decide) (Wv (Proc.devRef .tc main_arg3)) := by
  after_results_simp <;> rfl

theorem bias1 : StableHlo.after hostOps2 Wv (Proc.devRef .tc main_v67)
    = shapeCast Cert.Gin.Bias1 (Cert.Gin.biasSlice 2 (by decide) (Wv (Proc.devRef .tc main_arg4))) (by decide) := by
  after_results_simp <;> rfl

theorem weights2 : StableHlo.after hostOps2 Wv (Proc.devRef .tc main_v64) = Cert.Gin.matSlice 2 (by decide) (Wv (Proc.devRef .tc main_arg5)) := by
  after_results_simp <;> rfl

theorem bias2 : StableHlo.after hostOps2 Wv (Proc.devRef .tc main_v68)
    = shapeCast Cert.Gin.Bias1 (Cert.Gin.biasSlice 2 (by decide) (Wv (Proc.devRef .tc main_arg6))) (by decide) := by
  after_results_simp <;> rfl

theorem keeps_main_v1 : StableHlo.after hostOps2 Wv (Proc.devRef .tc main_v1) = Wv (Proc.devRef .tc main_v1) := by
  after_results_simp <;> rfl

theorem keeps_main_v3 : StableHlo.after hostOps2 Wv (Proc.devRef .tc main_v3) = Wv (Proc.devRef .tc main_v3) := by
  after_results_simp <;> rfl

theorem keeps_main_arg3 : StableHlo.after hostOps2 Wv (Proc.devRef .tc main_arg3) = Wv (Proc.devRef .tc main_arg3) := by
  after_results_simp <;> rfl

theorem keeps_main_arg4 : StableHlo.after hostOps2 Wv (Proc.devRef .tc main_arg4) = Wv (Proc.devRef .tc main_arg4) := by
  after_results_simp <;> rfl

theorem keeps_main_arg5 : StableHlo.after hostOps2 Wv (Proc.devRef .tc main_arg5) = Wv (Proc.devRef .tc main_arg5) := by
  after_results_simp <;> rfl

theorem keeps_main_arg6 : StableHlo.after hostOps2 Wv (Proc.devRef .tc main_arg6) = Wv (Proc.devRef .tc main_arg6) := by
  after_results_simp <;> rfl

end Cert.KernelIdeal.Stretch2

end
-- ==== Proof.Stretch3.lean ====
/-
  The host operations before region 3, read at the buffers the region and the later stretches use.

  From any contents `Wv` of the buffers, the stretch leaves: in the region's feature input, the aggregation
  (`Cert.Gin.agg`) of the previous region's output along the two edge vectors; in its weight inputs, slice 3 of the stacked
  weight arguments; in its bias inputs, slice 3 of the stacked bias arguments recast as one-row arrays. It writes none of
  the edge vectors or weight and bias arguments, which the later stretches read.
-/
import proofs.«136353_j58171037057290_1_alg».proof.Proof.Gen.KernelIdeal.Launch
import proofs.«136353_j58171037057290_1_alg».proof.Proof.HostTerms
import Idealize.ShloMosaic.Lib.StableHlo.Run

noncomputable section

namespace Cert.KernelIdeal.Stretch3

open Cert.KernelIdeal Cert.KernelIdeal.Gen
open Idealize.ShloMosaic Idealize.ShloMosaic.TcCoe Idealize.ShloMosaic.StableHlo Idealize.SL.Sem

variable (Wv : Valuation τ sig (Elt Ideal))

theorem features : StableHlo.after hostOps3 Wv (Proc.devRef .tc main_v80)
    = Cert.Gin.agg (Wv (Proc.devRef .tc main_v69)) (Wv (Proc.devRef .tc main_v1)) (Wv (Proc.devRef .tc main_v3)) := by
  after_results_simp <;> rfl

theorem weights1 : StableHlo.after hostOps3 Wv (Proc.devRef .tc main_v82) = Cert.Gin.matSlice 3 (by decide) (Wv (Proc.devRef .tc main_arg3)) := by
  after_results_simp <;> rfl

theorem bias1 : StableHlo.after hostOps3 Wv (Proc.devRef .tc main_v89)
    = shapeCast Cert.Gin.Bias1 (Cert.Gin.biasSlice 3 (by decide) (Wv (Proc.devRef .tc main_arg4))) (by decide) := by
  after_results_simp <;> rfl

theorem weights2 : StableHlo.after hostOps3 Wv (Proc.devRef .tc main_v86) = Cert.Gin.matSlice 3 (by decide) (Wv (Proc.devRef .tc main_arg5)) := by
  after_results_simp <;> rfl

theorem bias2 : StableHlo.after hostOps3 Wv (Proc.devRef .tc main_v90)
    = shapeCast Cert.Gin.Bias1 (Cert.Gin.biasSlice 3 (by decide) (Wv (Proc.devRef .tc main_arg6))) (by decide) := by
  after_results_simp <;> rfl

theorem keeps_main_v1 : StableHlo.after hostOps3 Wv (Proc.devRef .tc main_v1) = Wv (Proc.devRef .tc main_v1) := by
  after_results_simp <;> rfl

theorem keeps_main_v3 : StableHlo.after hostOps3 Wv (Proc.devRef .tc main_v3) = Wv (Proc.devRef .tc main_v3) := by
  after_results_simp <;> rfl

theorem keeps_main_arg3 : StableHlo.after hostOps3 Wv (Proc.devRef .tc main_arg3) = Wv (Proc.devRef .tc main_arg3) := by
  after_results_simp <;> rfl

theorem keeps_main_arg4 : StableHlo.after hostOps3 Wv (Proc.devRef .tc main_arg4) = Wv (Proc.devRef .tc main_arg4) := by
  after_results_simp <;> rfl

theorem keeps_main_arg5 : StableHlo.after hostOps3 Wv (Proc.devRef .tc main_arg5) = Wv (Proc.devRef .tc main_arg5) := by
  after_results_simp <;> rfl

theorem keeps_main_arg6 : StableHlo.after hostOps3 Wv (Proc.devRef .tc main_arg6) = Wv (Proc.devRef .tc main_arg6) := by
  after_results_simp <;> rfl

end Cert.KernelIdeal.Stretch3

end
-- ==== Proof.KernelRun.lean ====
/-
  The idealized kernel's run, with its result named.

  @main is eight segments: four stretches of host operations, each followed by a region. The buffers' contents at
  the boundary after each segment are a fold from the launch memory: a stretch applies its operations, a region
  replaces its output array by what its write-backs leave and keeps every other buffer. Every weakly fair execution
  ends in a state whose unscoped buffers hold the last boundary's contents; read at the result buffer this is the
  last region's output array, and read at an argument it is the launch contents.
-/
import proofs.«136353_j58171037057290_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v91) = W8 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v91 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.RunValue

end
-- ==== Proof.Fold.lean ====
/-
  The idealized kernel's result buffer holds the network of the arguments.

  The buffers' contents at the eight segment boundaries are a fold from the launch memory. Two kinds of buffer are
  followed through it. The two edge vectors (written once, by the first stretch) and the four weight and bias
  arguments are written by no later stretch and are no region's output, so every boundary from the first region's
  entry on holds them as the first stretch left them (`Keeps`). Each region's output array holds, after the region,
  the dense part of a layer of the five arrays the region finds (`Region<l>.final`); the stretch before the region
  left in those five the aggregation of the previous region's output and slice `l` of the weights and biases
  (`Stretch<l>`), a bias recast as one row and read back as a vector by the region being the bias vector. So region
  `l`'s output array is layer `l` of region `l - 1`'s, and the last one, which is the result buffer, is the
  network.
-/
import proofs.«136353_j58171037057290_1_alg».proof.Proof.Gen.KernelIdeal.Frame
import proofs.«136353_j58171037057290_1_alg».proof.Proof.HostTerms
import proofs.«136353_j58171037057290_1_alg».proof.Proof.Region0
import proofs.«136353_j58171037057290_1_alg».proof.Proof.Region1
import proofs.«136353_j58171037057290_1_alg».proof.Proof.Region2
import proofs.«136353_j58171037057290_1_alg».proof.Proof.Region3
import proofs.«136353_j58171037057290_1_alg».proof.Proof.Stretch0
import proofs.«136353_j58171037057290_1_alg».proof.Proof.Stretch1
import proofs.«136353_j58171037057290_1_alg».proof.Proof.Stretch2
import proofs.«136353_j58171037057290_1_alg».proof.Proof.Stretch3
import proofs.«136353_j58171037057290_1_alg».proof.Proof.KernelRun

set_option maxRecDepth 16384

noncomputable section

namespace Cert.KernelIdeal.Fold

open Cert.KernelIdeal Cert.KernelIdeal.Gen Cert.KernelIdeal.Body
open Idealize.ShloMosaic Idealize.ShloMosaic.TcCoe Idealize.ShloMosaic.StableHlo Idealize.SL.Sem

variable (m : (ℓ : Loc nD τ sig) → Buf (Elt Ideal) ℓ) (ρ : Dev nD → PrngReg)

section Boundaries

variable (c : Dev nD)

/-- The argument arrays at launch. -/
abbrev argX : (⟨Cert.Gin.Nodes, .f32⟩ : BufTy).Contents (Elt Ideal) := m ((c : Thread nD τ).loc main_arg0)
abbrev argE : (⟨Cert.Gin.Edges, .i32⟩ : BufTy).Contents (Elt Ideal) := m ((c : Thread nD τ).loc main_arg1)
abbrev argW1 : (⟨Cert.Gin.Mats, .f32⟩ : BufTy).Contents (Elt Ideal) := m ((c : Thread nD τ).loc main_arg3)
abbrev argB1 : (⟨Cert.Gin.Biases, .f32⟩ : BufTy).Contents (Elt Ideal) := m ((c : Thread nD τ).loc main_arg4)
abbrev argW2 : (⟨Cert.Gin.Mats, .f32⟩ : BufTy).Contents (Elt Ideal) := m ((c : Thread nD τ).loc main_arg5)
abbrev argB2 : (⟨Cert.Gin.Biases, .f32⟩ : BufTy).Contents (Elt Ideal) := m ((c : Thread nD τ).loc main_arg6)

/-- What every boundary from the first region's entry on holds: the two rows of the edge list in the edge-vector
    buffers, and the weight and bias arguments as launched. -/
structure Keeps (Wv : Valuation τ sig (Elt Ideal)) : Prop where
  src : Wv (Proc.devRef .tc main_v1) = Cert.Gin.edgeRow 0 (by decide) (argE m c)
  dst : Wv (Proc.devRef .tc main_v3) = Cert.Gin.edgeRow 1 (by decide) (argE m c)
  w1 : Wv (Proc.devRef .tc main_arg3) = argW1 m c
  b1 : Wv (Proc.devRef .tc main_arg4) = argB1 m c
  w2 : Wv (Proc.devRef .tc main_arg5) = argW2 m c
  b2 : Wv (Proc.devRef .tc main_arg6) = argB2 m c

/-- The first stretch establishes it. -/
theorem keeps_entry0 : Keeps m c (W1 m ρ c) where
  src := Stretch0.sources (W0 m ρ c)
  dst := Stretch0.targets (W0 m ρ c)
  w1 := Stretch0.keeps_main_arg3 (W0 m ρ c)
  b1 := Stretch0.keeps_main_arg4 (W0 m ρ c)
  w2 := Stretch0.keeps_main_arg5 (W0 m ρ c)
  b2 := Stretch0.keeps_main_arg6 (W0 m ρ c)

/-- Region 0 writes its output array only. -/
theorem keeps_exit0 (h : Keeps m c (W1 m ρ c)) : Keeps m c (W2 m ρ c) where
  src := (W2_of_ne m ρ c main_v1 (by decide)).trans h.src
  dst := (W2_of_ne m ρ c main_v3 (by decide)).trans h.dst
  w1 := (W2_of_ne m ρ c main_arg3 (by decide)).trans h.w1
  b1 := (W2_of_ne m ρ c main_arg4 (by decide)).trans h.b1
  w2 := (W2_of_ne m ρ c main_arg5 (by decide)).trans h.w2
  b2 := (W2_of_ne m ρ c main_arg6 (by decide)).trans h.b2

/-- Region 1 writes its output array only. -/
theorem keeps_exit1 (h : Keeps m c (W3 m ρ c)) : Keeps m c (W4 m ρ c) where
  src := (W4_of_ne m ρ c main_v1 (by decide)).trans h.src
  dst := (W4_of_ne m ρ c main_v3 (by decide)).trans h.dst
  w1 := (W4_of_ne m ρ c main_arg3 (by decide)).trans h.w1
  b1 := (W4_of_ne m ρ c main_arg4 (by decide)).trans h.b1
  w2 := (W4_of_ne m ρ c main_arg5 (by decide)).trans h.w2
  b2 := (W4_of_ne m ρ c main_arg6 (by decide)).trans h.b2

/-- Region 2 writes its output array only. -/
theorem keeps_exit2 (h : Keeps m c (W5 m ρ c)) : Keeps m c (W6 m ρ c) where
  src := (W6_of_ne m ρ c main_v1 (by decide)).trans h.src
  dst := (W6_of_ne m ρ c main_v3 (by decide)).trans h.dst
  w1 := (W6_of_ne m ρ c main_arg3 (by decide)).trans h.w1
  b1 := (W6_of_ne m ρ c main_arg4 (by decide)).trans h.b1
  w2 := (W6_of_ne m ρ c main_arg5 (by decide)).trans h.w2
  b2 := (W6_of_ne m ρ c main_arg6 (by decide)).trans h.b2

/-- Region 3 writes its output array only. -/
theorem keeps_exit3 (h : Keeps m c (W7 m ρ c)) : Keeps m c (W8 m ρ c) where
  src := (W8_of_ne m ρ c main_v1 (by decide)).trans h.src
  dst := (W8_of_ne m ρ c main_v3 (by decide)).trans h.dst
  w1 := (W8_of_ne m ρ c main_arg3 (by decide)).trans h.w1
  b1 := (W8_of_ne m ρ c main_arg4 (by decide)).trans h.b1
  w2 := (W8_of_ne m ρ c main_arg5 (by decide)).trans h.w2
  b2 := (W8_of_ne m ρ c main_arg6 (by decide)).trans h.b2

/-- The stretch before region 1 writes none of them. -/
theorem keeps_stretch1 {Wv : Valuation τ sig (Elt Ideal)} (h : Keeps m c Wv) : Keeps m c (StableHlo.after hostOps1 Wv) where
  src := (Stretch1.keeps_main_v1 Wv).trans h.src
  dst := (Stretch1.keeps_main_v3 Wv).trans h.dst
  w1 := (Stretch1.keeps_main_arg3 Wv).trans h.w1
  b1 := (Stretch1.keeps_main_arg4 Wv).trans h.b1
  w2 := (Stretch1.keeps_main_arg5 Wv).trans h.w2
  b2 := (Stretch1.keeps_main_arg6 Wv).trans h.b2

/-- The stretch before region 2 writes none of them. -/
theorem keeps_stretch2 {Wv : Valuation τ sig (Elt Ideal)} (h : Keeps m c Wv) : Keeps m c (StableHlo.after hostOps2 Wv) where
  src := (Stretch2.keeps_main_v1 Wv).trans h.src
  dst := (Stretch2.keeps_main_v3 Wv).trans h.dst
  w1 := (Stretch2.keeps_main_arg3 Wv).trans h.w1
  b1 := (Stretch2.keeps_main_arg4 Wv).trans h.b1
  w2 := (Stretch2.keeps_main_arg5 Wv).trans h.w2
  b2 := (Stretch2.keeps_main_arg6 Wv).trans h.b2

/-- The stretch before region 3 writes none of them. -/
theorem keeps_stretch3 {Wv : Valuation τ sig (Elt Ideal)} (h : Keeps m c Wv) : Keeps m c (StableHlo.after hostOps3 Wv) where
  src := (Stretch3.keeps_main_v1 Wv).trans h.src
  dst := (Stretch3.keeps_main_v3 Wv).trans h.dst
  w1 := (Stretch3.keeps_main_arg3 Wv).trans h.w1
  b1 := (Stretch3.keeps_main_arg4 Wv).trans h.b1
  w2 := (Stretch3.keeps_main_arg5 Wv).trans h.w2
  b2 := (Stretch3.keeps_main_arg6 Wv).trans h.b2

theorem keeps_exit0' : Keeps m c (W2 m ρ c) := keeps_exit0 m ρ c (keeps_entry0 m ρ c)
theorem keeps_exit1' : Keeps m c (W4 m ρ c) := keeps_exit1 m ρ c (keeps_stretch1 m c (keeps_exit0' m ρ c))
theorem keeps_exit2' : Keeps m c (W6 m ρ c) := keeps_exit2 m ρ c (keeps_stretch2 m c (keeps_exit1' m ρ c))

/-- Region 0's output array is layer 0 of the feature argument. -/
theorem out0 : W2 m ρ c (Proc.devRef .tc main_v25)
    = Cert.Gin.layer 0 (by decide) (by decide) (argX m c) (argE m c) (argW1 m c) (argB1 m c) (argW2 m c) (argB2 m c) := by
  refine (W2_arr m ρ c 5).trans ?_
  rw [Region0.final]
  show Cert.Gin.mlp (StableHlo.after hostOps0 (W0 m ρ c) (Proc.devRef .tc main_v14)) (StableHlo.after hostOps0 (W0 m ρ c) (Proc.devRef .tc main_v16))
      (rowVec (StableHlo.after hostOps0 (W0 m ρ c) (Proc.devRef .tc main_v23))) (StableHlo.after hostOps0 (W0 m ρ c) (Proc.devRef .tc main_v20))
      (rowVec (StableHlo.after hostOps0 (W0 m ρ c) (Proc.devRef .tc main_v24))) = _
  rw [Stretch0.features, Stretch0.weights1, Stretch0.bias1, Stretch0.weights2, Stretch0.bias2, rowVec_shapeCast, rowVec_shapeCast]
  rfl

/-- Region 1's output array is layer 1 of region 0's. -/
theorem out1 (X : (⟨Cert.Gin.Nodes, .f32⟩ : BufTy).Contents (Elt Ideal)) (hX : W2 m ρ c (Proc.devRef .tc main_v25) = X) :
    W4 m ρ c (Proc.devRef .tc main_v47) = Cert.Gin.layer 1 (by decide) (by decide) X (argE m c) (argW1 m c) (argB1 m c) (argW2 m c) (argB2 m c) := by
  have hk := keeps_exit0' m ρ c
  refine (W4_arr m ρ c 5).trans ?_
  rw [Region1.final]
  show Cert.Gin.mlp (StableHlo.after hostOps1 (W2 m ρ c) (Proc.devRef .tc main_v36)) (StableHlo.after hostOps1 (W2 m ρ c) (Proc.devRef .tc main_v38))
      (rowVec (StableHlo.after hostOps1 (W2 m ρ c) (Proc.devRef .tc main_v45))) (StableHlo.after hostOps1 (W2 m ρ c) (Proc.devRef .tc main_v42))
      (rowVec (StableHlo.after hostOps1 (W2 m ρ c) (Proc.devRef .tc main_v46))) = _
  rw [Stretch1.features, Stretch1.weights1, Stretch1.bias1, Stretch1.weights2, Stretch1.bias2, rowVec_shapeCast, rowVec_shapeCast,
    hX, hk.src, hk.dst, hk.w1, hk.b1, hk.w2, hk.b2]
  rfl

/-- Region 2's output array is layer 2 of region 1's. -/
theorem out2 (X : (⟨Cert.Gin.Nodes, .f32⟩ : BufTy).Contents (Elt Ideal)) (hX : W4 m ρ c (Proc.devRef .tc main_v47) = X) :
    W6 m ρ c (Proc.devRef .tc main_v69) = Cert.Gin.layer 2 (by decide) (by decide) X (argE m c) (argW1 m c) (argB1 m c) (argW2 m c) (argB2 m c) := by
  have hk := keeps_exit1' m ρ c
  refine (W6_arr m ρ c 5).trans ?_
  rw [Region2.final]
  show Cert.Gin.mlp (StableHlo.after hostOps2 (W4 m ρ c) (Proc.devRef .tc main_v58)) (StableHlo.after hostOps2 (W4 m ρ c) (Proc.devRef .tc main_v60))
      (rowVec (StableHlo.after hostOps2 (W4 m ρ c) (Proc.devRef .tc main_v67))) (StableHlo.after hostOps2 (W4 m ρ c) (Proc.devRef .tc main_v64))
      (rowVec (StableHlo.after hostOps2 (W4 m ρ c) (Proc.devRef .tc main_v68))) = _
  rw [Stretch2.features, Stretch2.weights1, Stretch2.bias1, Stretch2.weights2, Stretch2.bias2, rowVec_shapeCast, rowVec_shapeCast,
    hX, hk.src, hk.dst, hk.w1, hk.b1, hk.w2, hk.b2]
  rfl

/-- Region 3's output array is layer 3 of region 2's. -/
theorem out3 (X : (⟨Cert.Gin.Nodes, .f32⟩ : BufTy).Contents (Elt Ideal)) (hX : W6 m ρ c (Proc.devRef .tc main_v69) = X) :
    W8 m ρ c (Proc.devRef .tc main_v91) = Cert.Gin.layer 3 (by decide) (by decide) X (argE m c) (argW1 m c) (argB1 m c) (argW2 m c) (argB2 m c) := by
  have hk := keeps_exit2' m ρ c
  refine (W8_arr m ρ c 5).trans ?_
  rw [Region3.final]
  show Cert.Gin.mlp (StableHlo.after hostOps3 (W6 m ρ c) (Proc.devRef .tc main_v80)) (StableHlo.after hostOps3 (W6 m ρ c) (Proc.devRef .tc main_v82))
      (rowVec (StableHlo.after hostOps3 (W6 m ρ c) (Proc.devRef .tc main_v89))) (StableHlo.after hostOps3 (W6 m ρ c) (Proc.devRef .tc main_v86))
      (rowVec (StableHlo.after hostOps3 (W6 m ρ c) (Proc.devRef .tc main_v90))) = _
  rw [Stretch3.features, Stretch3.weights1, Stretch3.bias1, Stretch3.weights2, Stretch3.bias2, rowVec_shapeCast, rowVec_shapeCast,
    hX, hk.src, hk.dst, hk.w1, hk.b1, hk.w2, hk.b2]
  rfl

/-- The result buffer at the last boundary holds the network of the arguments. -/
theorem result : W8 m ρ c (Proc.devRef .tc main_v91) = Cert.Gin.network (argX m c) (argE m c) (argW1 m c) (argB1 m c) (argW2 m c) (argB2 m c) :=
  out3 m ρ c _ (out2 m ρ c _ (out1 m ρ c _ (out0 m ρ c)))

end Boundaries

/-- The idealized kernel's run: every weakly fair execution terminates, nothing faulting, with the result buffer at the
    network of the arguments and the arguments as launched. -/
theorem run : θ_run defs (onTc (τ := τ) (main (F := Ideal))) ⟨m, fun _ => 0, ρ⟩ (fun r => ∀ c : Dev nD,
      r.2.mem ((c.tc : Thread nD τ).loc main_v91) = Cert.Gin.network (argX m c) (argE m c) (argW1 m c) (argB1 m c) (argW2 m c) (argB2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result m ρ c), (h c).2⟩) (Cert.KernelIdeal.RunValue.run m ρ)

end Cert.KernelIdeal.Fold

end
-- ==== Proof.RefValue.lean ====
/-
  The reference computes the network.

  Its @main is the four layers written out as host operations. Layer by layer, the stage that holds a layer's output
  is the dense part (`Cert.Gin.mlp`, by `Cert.Gin.hostLayer_eq`: two `dot_general`s, the bias vectors broadcast to
  rows and down the rows, the cut at zero a maximum against a broadcast zero) of the stage that holds the layer's
  aggregated features, with that layer's slices of the weights and biases; and the aggregated features are the
  previous layer's output plus its gathered rows scattered with addition, the same operations on the same
  operands as `Cert.Gin.agg`. So each layer's output stage is `Cert.Gin.layer` of the previous one, and the
  result is `Cert.Gin.network` of the arguments.
-/
import proofs.«136353_j58171037057290_1_alg».proof.Proof.Gen.ReferenceIdeal.Read
import proofs.«136353_j58171037057290_1_alg».proof.Proof.HostTerms

noncomputable section

namespace Cert.ReferenceIdeal.RefValue

open Cert.ReferenceIdeal Cert.ReferenceIdeal.Gen Cert.ReferenceIdeal.Read Idealize.ShloMosaic

variable (x0 : (⟨S50000x128, .f32⟩ : BufTy).Contents (Elt Ideal)) (x1 : (⟨S2x800000, .i32⟩ : BufTy).Contents (Elt Ideal))
  (x3 : (⟨S4x128x128, .f32⟩ : BufTy).Contents (Elt Ideal)) (x4 : (⟨S4x128, .f32⟩ : BufTy).Contents (Elt Ideal))
  (x5 : (⟨S4x128x128, .f32⟩ : BufTy).Contents (Elt Ideal)) (x6 : (⟨S4x128, .f32⟩ : BufTy).Contents (Elt Ideal))

/-- Layer 0's output stage is layer 0 of the features. -/
theorem layer0_eq : val_main_v31 (F := Ideal) x0 x1 x3 x4 x5 x6
    = Cert.Gin.layer 0 (by decide) (by decide) x0 x1 x3 x4 x5 x6 := by
  unfold val_main_v31 val_main_v26 val_main_v23 val_main_v22 val_main_v17 val_main_v21 val_main_v20
    val_main_v30 val_main_v29 val_main_call0_v0 val_main_call0_cst
  exact (Cert.Gin.hostLayer_eq _ rfl _ _ _ _ _ _ _ _).trans rfl

/-- Layer 1's output stage is layer 1 of layer 0's output stage. -/
theorem layer1_eq : val_main_v59 (F := Ideal) x0 x1 x3 x4 x5 x6
    = Cert.Gin.layer 1 (by decide) (by decide) (val_main_v31 (F := Ideal) x0 x1 x3 x4 x5 x6) x1 x3 x4 x5 x6 := by
  unfold val_main_v59 val_main_v54 val_main_v51 val_main_v50 val_main_v45 val_main_v49 val_main_v48
    val_main_v58 val_main_v57 val_main_call1_v0 val_main_call1_cst
  exact (Cert.Gin.hostLayer_eq _ rfl _ _ _ _ _ _ _ _).trans rfl

/-- Layer 2's output stage is layer 2 of layer 1's output stage. -/
theorem layer2_eq : val_main_v87 (F := Ideal) x0 x1 x3 x4 x5 x6
    = Cert.Gin.layer 2 (by decide) (by decide) (val_main_v59 (F := Ideal) x0 x1 x3 x4 x5 x6) x1 x3 x4 x5 x6 := by
  unfold val_main_v87 val_main_v82 val_main_v79 val_main_v78 val_main_v73 val_main_v77 val_main_v76
    val_main_v86 val_main_v85 val_main_call2_v0 val_main_call2_cst
  exact (Cert.Gin.hostLayer_eq _ rfl _ _ _ _ _ _ _ _).trans rfl

/-- Layer 3's output stage is layer 3 of layer 2's output stage. -/
theorem layer3_eq : val_main_v115 (F := Ideal) x0 x1 x3 x4 x5 x6
    = Cert.Gin.layer 3 (by decide) (by decide) (val_main_v87 (F := Ideal) x0 x1 x3 x4 x5 x6) x1 x3 x4 x5 x6 := by
  unfold val_main_v115 val_main_v110 val_main_v107 val_main_v106 val_main_v101 val_main_v105 val_main_v104
    val_main_v114 val_main_v113 val_main_call3_v0 val_main_call3_cst
  exact (Cert.Gin.hostLayer_eq _ rfl _ _ _ _ _ _ _ _).trans rfl

/-- The reference's result stage is the network of the arguments. -/
theorem result_eq : val_main_v115 (F := Ideal) x0 x1 x3 x4 x5 x6 = Cert.Gin.network x0 x1 x3 x4 x5 x6 := by
  rw [layer3_eq, layer2_eq, layer1_eq, layer0_eq]
  rfl

end Cert.ReferenceIdeal.RefValue

end
-- ==== Proof.lean ====
/-
  A four-layer graph network, its dense parts computed on the device, equals its plain reference on the extended
  reals.

  Both programs send node features `x` (50000 nodes, 128 features) through four layers
  `x ↦ mlp_l (x + S x)`: `S x` sums into each node the feature rows of its in-edges' sources (a gather along the edge
  list's first row and a scatter with addition along its second), and `mlp_l` is
  `max (a · W1_l + b1_l) 0 · W2_l + b2_l` with slice `l` of the stacked weights and biases. The kernel computes
  `x + S x` with host operations and `mlp_l` in a region that walks ten blocks of 5000 rows, its products taken by the
  matrix unit into zero accumulators with changes of float format in between; the reference computes everything
  with host operations. On the extended reals a change of float format is the identity and both kinds of product
  are the same finite sums, and `mlp_l` computes each output row from the input row of the same number, so the ten
  blocks are the blocks of one whole-array function. The gather and the scatter are the same operations on the same
  operands in both programs and are never opened. Both results are `Cert.Gin.network` of the arguments; no law
  beyond the identity of the two spellings is used, and the inputs' finiteness is not needed.

  The frames of the two kernel programs are the generated ones; the reference's frame is its generated run with the
  result dropped; the ideal pass rewrote nothing, so there is nothing to preserve.
-/
import proofs.«136353_j58171037057290_1_alg».proof.Defs
import proofs.«136353_j58171037057290_1_alg».proof.Proof.Gen.Kernel
import proofs.«136353_j58171037057290_1_alg».proof.Proof.Gen.Kernel.Frame
import proofs.«136353_j58171037057290_1_alg».proof.Proof.Gen.KernelIdeal
import proofs.«136353_j58171037057290_1_alg».proof.Proof.Gen.KernelIdeal.Frame
import proofs.«136353_j58171037057290_1_alg».proof.Proof.Gen.ReferenceIdeal
import proofs.«136353_j58171037057290_1_alg».proof.Proof.Gen.ReferenceIdeal.Run
import proofs.«136353_j58171037057290_1_alg».proof.Proof.Gen.ReferenceIdeal.Read
import proofs.«136353_j58171037057290_1_alg».proof.Proof.Gen.Pre_finite_inputs
import proofs.«136353_j58171037057290_1_alg».proof.Proof.Fold
import proofs.«136353_j58171037057290_1_alg».proof.Proof.RefValue

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the network of the arguments in their result
    buffers. -/
theorem algebraic : Cert.algebraic_KernelIdeal_ReferenceIdeal := by
  intro m ρ m' ρ' _ hagree
  refine ⟨_, Cert.KernelIdeal.Fold.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, _, h3, h4, h5, h6⟩ := hagree c
  rw [Cert.ReferenceIdeal.Read.val_main_v115_eq, Cert.ReferenceIdeal.RefValue.result_eq, h0, h1, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
